-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S64 .f32) (main_arg13 : FVec F S64x128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x128 .f32 := Host.absf main_arg13
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S64x128 .f32) (main_arg12 : FVec F S64 .f32) (main_arg13 : FVec F S64x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg12 main_arg13 main_v48 main_v49 main_v50

def fn_part1 {F : FTy → Type} [FloatOps F] (main_arg5 : FVec F S128x64 .f32) (main_arg6 : FVec F S128 .f32) (main_arg7 : FVec F S128x64 .f32) (main_arg8 : FVec F S128x128 .f32) (main_arg9 : FVec F S128 .f32) (main_arg10 : FVec F S128x128 .f32) (main_arg11 : FVec F S64x128 .f32) (main_arg12 : FVec F S64 .f32) (main_arg13 : FVec F S64x128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S64x128 .f32) (main_arg3 : FVec F S64 .f32) (main_arg4 : FVec F S64x128 .f32) (main_arg5 : FVec F S128x64 .f32) (main_arg6 : FVec F S128 .f32) (main_arg7 : FVec F S128x64 .f32) (main_arg8 : FVec F S128x128 .f32) (main_arg9 : FVec F S128 .f32) (main_arg10 : FVec F S128x128 .f32) (main_arg11 : FVec F S64x128 .f32) (main_arg12 : FVec F S64 .f32) (main_arg13 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S1x128 : Shape := ⟨2, ![1, 128]⟩

abbrev nBuf : Space → Nat
  | .hbm => 107
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S128x64, .f32⟩
  | .hbm, ⟨6, _⟩ => ⟨S128, .f32⟩
  | .hbm, ⟨7, _⟩ => ⟨S128x64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S64x128, .f32⟩
  | .hbm, ⟨12, _⟩ => ⟨S64, .f32⟩
  | .hbm, ⟨13, _⟩ => ⟨S64x128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S128x64, .f32⟩
  | .hbm, ⟨47, _⟩ => ⟨S128x64, .f32⟩
  | .hbm, ⟨48, _⟩ => ⟨S1x64, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S64x128, .f32⟩
  | .hbm, ⟨66, _⟩ => ⟨S64x128, .f32⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S128x128, .f32⟩
  | .hbm, ⟨85, _⟩ => ⟨S128x128, .f32⟩
  | .hbm, ⟨86, _⟩ => ⟨S1x128, .f32⟩
  | .hbm, ⟨87, _⟩ => ⟨S50000x128, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x128, .f32⟩
  | .hbm, ⟨97, _⟩ => ⟨S_, .f32⟩
  | .hbm, ⟨98, _⟩ => ⟨S50000x128, .f32⟩
  | .hbm, ⟨99, _⟩ => ⟨S800000x1, .i32⟩
  | .hbm, ⟨100, _⟩ => ⟨S50000x128, .f32⟩
  | .hbm, ⟨101, _⟩ => ⟨S50000x128, .f32⟩
  | .hbm, ⟨102, _⟩ => ⟨S50000x128, .f32⟩
  | .hbm, ⟨103, _⟩ => ⟨S128x64, .f32⟩
  | .hbm, ⟨104, _⟩ => ⟨S128x64, .f32⟩
  | .hbm, ⟨105, _⟩ => ⟨S1x64, .f32⟩
  | .hbm, ⟨106, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x128, .f32⟩
  | .local _ .vmem, ⟨14, _⟩ => ⟨S64x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x64, .f32⟩
  | .local _ .vmem, ⟨32, _⟩ => ⟨S128x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_11 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S128x64_S64x128_1_0 : S128x64.Transposes [1, 0] S64x128
  shapeCasts_S128_S1x128 : S128.ShapeCasts S1x128
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩
abbrev S1x128 : Shape := ⟨2, ![1, 128]⟩

abbrev nBuf : Space → Nat
  | .hbm => 159
  | .vmem => 0
  | .smem => 0
  | _ => 0

abbrev hbmTy0_0 (i : Nat) : BufTy := match i % 128 with
  | 0 => ⟨S50000x128, .f32⟩
  | 1 => ⟨S2x800000, .i32⟩
  | 2 => ⟨S64x128, .f32⟩
  | 3 => ⟨S64, .f32⟩
  | 4 => ⟨S64x128, .f32⟩
  | 5 => ⟨S128x64, .f32⟩
  | 6 => ⟨S128, .f32⟩
  | 7 => ⟨S128x64, .f32⟩
  | 8 => ⟨S128x128, .f32⟩
  | 9 => ⟨S128, .f32⟩
  | 10 => ⟨S128x128, .f32⟩
  | 11 => ⟨S64x128, .f32⟩
  | 12 => ⟨S64, .f32⟩
  | 13 => ⟨S64x128, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x128, .f32⟩
  | 42 => ⟨S50000x128, .f32⟩
  | 43 => ⟨S128x64, .f32⟩
  | 44 => ⟨S50000x64, .f32⟩
  | 45 => ⟨S1x64, .f32⟩
  | 46 => ⟨S50000x64, .f32⟩
  | 47 => ⟨S50000x64, .f32⟩
  | 48 => ⟨S128x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x64, .f32⟩
  | 63 => ⟨S_, .f32⟩
  | 64 => ⟨S50000x64, .f32⟩
  | 65 => ⟨S800000x1, .i32⟩
  | 66 => ⟨S50000x64, .f32⟩
  | 67 => ⟨S_, .f32⟩
  | 68 => ⟨S800000, .f32⟩
  | 69 => ⟨S_, .f32⟩
  | 70 => ⟨S50000, .f32⟩
  | 71 => ⟨S800000x1, .i32⟩
  | 72 => ⟨S50000, .f32⟩
  | 73 => ⟨S_, .f32⟩
  | 74 => ⟨S50000, .f32⟩
  | 75 => ⟨S50000, .f32⟩
  | 76 => ⟨S50000x1, .f32⟩
  | 77 => ⟨S50000x64, .f32⟩
  | 78 => ⟨S50000x64, .f32⟩
  | 79 => ⟨S64x128, .f32⟩
  | 80 => ⟨S50000x128, .f32⟩
  | 81 => ⟨S1x128, .f32⟩
  | 82 => ⟨S50000x128, .f32⟩
  | 83 => ⟨S50000x128, .f32⟩
  | 84 => ⟨S64x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S_, .f32⟩
  | 104 => ⟨S800000, .f32⟩
  | 105 => ⟨S_, .f32⟩
  | 106 => ⟨S50000, .f32⟩
  | 107 => ⟨S800000x1, .i32⟩
  | 108 => ⟨S50000, .f32⟩
  | 109 => ⟨S_, .f32⟩
  | 110 => ⟨S50000, .f32⟩
  | 111 => ⟨S50000, .f32⟩
  | 112 => ⟨S50000x1, .f32⟩
  | 113 => ⟨S50000x128, .f32⟩
  | 114 => ⟨S50000x128, .f32⟩
  | 115 => ⟨S128x128, .f32⟩
  | 116 => ⟨S50000x128, .f32⟩
  | 117 => ⟨S1x128, .f32⟩
  | 118 => ⟨S50000x128, .f32⟩
  | 119 => ⟨S50000x128, .f32⟩
  | 120 => ⟨S128x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S50000x1, .f32⟩
  | 21 => ⟨S50000x128, .f32⟩
  | 22 => ⟨S50000x128, .f32⟩
  | 23 => ⟨S128x64, .f32⟩
  | 24 => ⟨S50000x64, .f32⟩
  | 25 => ⟨S1x64, .f32⟩
  | 26 => ⟨S50000x64, .f32⟩
  | 27 => ⟨S50000x64, .f32⟩
  | 28 => ⟨S128x64, .f32⟩
  | 29 => ⟨S50000x64, .f32⟩
  | 30 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call1_cst : Ref sig .tc := ⟨.hbm, 87, rfl⟩
abbrev main_call1_v0 : Ref sig .tc := ⟨.hbm, 88, rfl⟩
abbrev main_v59 : Ref sig .tc := ⟨.hbm, 89, rfl⟩
abbrev main_c_10 : Ref sig .tc := ⟨.hbm, 90, rfl⟩
abbrev main_v60 : Ref sig .tc := ⟨.hbm, 91, rfl⟩
abbrev main_v61 : Ref sig .tc := ⟨.hbm, 92, rfl⟩
abbrev main_c_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_call2_cst : Ref sig .tc := ⟨.hbm, 123, rfl⟩
abbrev main_call2_v0 : Ref sig .tc := ⟨.hbm, 124, rfl⟩
abbrev main_v87 : Ref sig .tc := ⟨.hbm, 125, rfl⟩
abbrev main_c_16 : Ref sig .tc := ⟨.hbm, 126, rfl⟩
abbrev main_v88 : Ref sig .tc := ⟨.hbm, 127, rfl⟩
abbrev main_v89 : Ref sig .tc := ⟨.hbm, 128, rfl⟩
abbrev main_c_17 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_18 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_19 : Ref sig .tc := ⟨.hbm, 139, rfl⟩
abbrev main_v98 : Ref sig .tc := ⟨.hbm, 140, rfl⟩
abbrev main_cst_20 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_21 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S128x128_S128x128_1_0 : S128x128.Transposes [1, 0] S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run with its result named.

  The program is four launches of the dense step between stretches of host operations.  Its run visits eight
  boundaries; at each, every unscoped buffer holds a known value: a host stretch applies its operations to the
  previous boundary's contents, a launch replaces its output array by what its grid points wrote back and keeps
  every other buffer.  The frame only says that the argument arrays end as launched; the same run also says that the
  result array ends at the last boundary's contents, which is the statement kept here.
-/
import proofs.«138681_j26860725469213_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result array at the contents of the last
    boundary and the argument arrays as launched. -/
theorem run_out : θ_run defs (onTc (τ := τ) (main (F := F))) ⟨m, fun _ => 0, ρ⟩ (fun r => ∀ c : Dev nD,
      r.2.mem ((c.tc : Thread nD τ).loc main_v76) = W8 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v76 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.Hand

end
-- ==== Proof.Spec.lean ====
/-
  The dense step of a mean-aggregation graph layer, at the exact values.

  A layer takes, for every node `p`, the normalised sum `A[p, ·]` of its neighbours' features and the node's own
  features `X[p, ·]`, and produces

      out[p, j] = act ( ∑ k, A[p,k] · Wl[k,j]  +  ∑ k, X[p,k] · Wr[k,j]  +  b[j] ),

  where `act` is the clamp at zero for the hidden layers and the identity for the last one.  The weight matrices are
  given already transposed (`K × D`), the bias as a one-row block.  Everything is an extended real; sums are finite
  sums over the contracted axis.
-/
import Idealize.ShloMosaic.PureOps.Ideal.Laws
import Idealize.ShloMosaic.Lib.ValueIdx

noncomputable section

open scoped BigOperators

namespace Cert.Sage

open Idealize.ShloMosaic Idealize.ShloMosaic.ValueIdx

/-- The clamp at zero, or the identity.  The zero is the value of the all-zero word, never evaluated: both
    programs compare against the same word. -/
def act (relu : Bool) (x : EReal) : EReal :=
  if relu then max x (Ideal.ofBits .f32 0x00000000#32) else x

/-- The dense step at node `p` and output feature `j`. -/
def denseAt (relu : Bool) {N K D : ℕ} (A X : FVec Ideal ⟨2, ![N, K]⟩ .f32) (Wl Wr : FVec Ideal ⟨2, ![K, D]⟩ .f32)
    (b : FVec Ideal ⟨2, ![1, D]⟩ .f32) (p : Fin N) (j : Fin D) : EReal :=
  act relu ((∑ k : Fin K, A (ix2 p k) * Wl (ix2 k j)) + (∑ k : Fin K, X (ix2 p k) * Wr (ix2 k j)) + b (ix2 (0 : Fin 1) j))

/-- The dense step as one function of whole arrays. -/
def dense (relu : Bool) {N K D : ℕ} (A X : FVec Ideal ⟨2, ![N, K]⟩ .f32) (Wl Wr : FVec Ideal ⟨2, ![K, D]⟩ .f32)
    (b : FVec Ideal ⟨2, ![1, D]⟩ .f32) : FVec Ideal ⟨2, ![N, D]⟩ .f32 :=
  fun i => denseAt relu A X Wl Wr b ⟨(i 0).val, idx2_lt0 i⟩ ⟨(i 1).val, idx2_lt1 i⟩

theorem dense_apply (relu : Bool) {N K D : ℕ} (A X : FVec Ideal ⟨2, ![N, K]⟩ .f32) (Wl Wr : FVec Ideal ⟨2, ![K, D]⟩ .f32)
    (b : FVec Ideal ⟨2, ![1, D]⟩ .f32) (p : Fin N) (j : Fin D) :
    dense relu A X Wl Wr b (ix2 p j) = denseAt relu A X Wl Wr b p j := rfl

end Cert.Sage

end
-- ==== Proof.KernelTerm.lean ====
/-
  The kernel program's result as one function of its arguments.

  From the edge list the program reads, once, the source node `src[e]` and the target node `dst[e]` of every edge,
  counts the edges into each node, `cnt[n] = ∑ {e | dst e = n} 1`, and keeps `1 / max(cnt[n], 1)` as a column.
  A layer then sums the features of each node's in-neighbours (gather the rows `h[src e]`, scatter-add them at
  `dst e`), multiplies row `n` by the kept reciprocal, and applies the dense step.  Four layers, the last without the
  clamp at zero.  The gather and the scatter-add are kept as the host operations they are: the reference applies the
  same two operations to the same index arrays, so they are never opened.
-/
import proofs.«138681_j26860725469213_1_alg».proof.Proof.Gen.KernelIdeal.Frame
import proofs.«138681_j26860725469213_1_alg».proof.Proof.Spec

noncomputable section

namespace Cert.KernelIdeal.Hand

open Idealize.ShloMosaic Idealize.ShloMosaic.TcCoe
open Cert.KernelIdeal Cert.KernelIdeal.Gen

/-- The edge list: row 0 the sources, row 1 the targets. -/
abbrev Edges : Type := (⟨S2x800000, .i32⟩ : BufTy).Contents (Elt Ideal)

/-- The source node of every edge. -/
def srcV (x1 : Edges) : (⟨S800000, .i32⟩ : BufTy).Contents (Elt Ideal) :=
  shapeCast _ (extractStridedSlice S1x800000 ![0, 0] x1 slices_S2x800000_S1x800000_0_0) shapeCasts_S1x800000_S800000

/-- The target node of every edge. -/
def dstV (x1 : Edges) : (⟨S800000, .i32⟩ : BufTy).Contents (Elt Ideal) :=
  shapeCast _ (extractStridedSlice S1x800000 ![1, 0] x1 slices_S2x800000_S1x800000_1_0) shapeCasts_S1x800000_S800000

/-- The gather's start indices: a negative source counts from the end. -/
def srcIdx (x1 : Edges) : (⟨S800000x1, .i32⟩ : BufTy).Contents (Elt Ideal) :=
  broadcastInDim S800000x1 ![0] bcast_S800000_S800000x1_0
    (select (cmpi .slt (srcV x1) (broadcastInDim S800000 ![] bcast_S_S800000 (constantI S_ 32 0#32)))
      (addi (srcV x1) (broadcastInDim S800000 ![] bcast_S_S800000 (constantI S_ 32 50000#32))) (srcV x1))

/-- The scatter's indices: the targets as a column. -/
def dstIdx (x1 : Edges) : (⟨S800000x1, .i32⟩ : BufTy).Contents (Elt Ideal) :=
  broadcastInDim S800000x1 ![0] bcast_S800000_S800000x1_0 (dstV x1)

/-- The number of edges into each node. -/
def cnt (x1 : Edges) : FVec Ideal S50000 .f32 :=
  Host.scatterAdd scatter_S50000_S800000x1_S800000_n_0_0_1
    (broadcastInDim S50000 ![] bcast_S_S50000 (constant (F := Ideal) S_ .f32 0x00000000#32)) (dstIdx x1)
    (broadcastInDim S800000 ![] bcast_S_S800000 (constant (F := Ideal) S_ .f32 0x3F800000#32))

/-- The count clamped below by one. -/
def cntMax (x1 : Edges) : FVec Ideal S50000 .f32 :=
  maximumf (cnt x1) (broadcastInDim S50000 ![] bcast_S_S50000 (constant (F := Ideal) S_ .f32 0x3F800000#32))

/-- The reciprocal of the clamped count, as a column. -/
def invc (x1 : Edges) : FVec Ideal S50000x1 .f32 :=
  shapeCast _ (Host.divf (F := Ideal) (broadcastInDim S50000 ![] bcast_S_S50000 (constant (F := Ideal) S_ .f32 0x3F800000#32)) (cntMax x1))
    shapeCasts_S50000_S50000x1

/-- The sum of the in-neighbours' rows, 128 features. -/
def sum128 (h : FVec Ideal S50000x128 .f32) (x1 : Edges) : FVec Ideal S50000x128 .f32 :=
  Host.scatterAdd scatter_S50000x128_S800000x1_S800000x128_1_0_0_1
    (broadcastInDim S50000x128 ![] bcast_S_S50000x128 (constant (F := Ideal) S_ .f32 0x00000000#32)) (dstIdx x1)
    (Host.gather gather_S50000x128_S800000x1_S800000x128_1_0_n_n_0_1_1128 h (srcIdx x1))

/-- The sum of the in-neighbours' rows, 64 features. -/
def sum64 (h : FVec Ideal S50000x64 .f32) (x1 : Edges) : FVec Ideal S50000x64 .f32 :=
  Host.scatterAdd scatter_S50000x64_S800000x1_S800000x64_1_0_0_1
    (broadcastInDim S50000x64 ![] bcast_S_S50000x64 (constant (F := Ideal) S_ .f32 0x00000000#32)) (dstIdx x1)
    (Host.gather gather_S50000x64_S800000x1_S800000x64_1_0_n_n_0_1_164 h (srcIdx x1))

/-- The reciprocal column spread over 128 and over 64 features. -/
def inv128 (x1 : Edges) : FVec Ideal S50000x128 .f32 := broadcastInDim S50000x128 ![0, 1] bcast_S50000x1_S50000x128_0_1 (invc x1)
def inv64 (x1 : Edges) : FVec Ideal S50000x64 .f32 := broadcastInDim S50000x64 ![0, 1] bcast_S50000x1_S50000x64_0_1 (invc x1)

/-- The mean of the in-neighbours' rows. -/
def agg128 (h : FVec Ideal S50000x128 .f32) (x1 : Edges) : FVec Ideal S50000x128 .f32 := mulf (sum128 h x1) (inv128 x1)
def agg64 (h : FVec Ideal S50000x64 .f32) (x1 : Edges) : FVec Ideal S50000x64 .f32 := mulf (sum64 h x1) (inv64 x1)

/-! ## The four layers -/

def h1 (x0 : FVec Ideal S50000x128 .f32) (x1 : Edges) (x2 : FVec Ideal S64x128 .f32) (x3 : FVec Ideal S64 .f32) (x4 : FVec Ideal S64x128 .f32) :
    FVec Ideal S50000x64 .f32 :=
  Sage.dense true (N := 50000) (K := 128) (D := 64) (agg128 x0 x1) x0
    (transpose S128x64 [1, 0] x2 transposes_S64x128_S128x64_1_0) (transpose S128x64 [1, 0] x4 transposes_S64x128_S128x64_1_0)
    (shapeCast _ x3 shapeCasts_S64_S1x64)

def h2 (g : FVec Ideal S50000x64 .f32) (x1 : Edges) (x5 : FVec Ideal S128x64 .f32) (x6 : FVec Ideal S128 .f32) (x7 : FVec Ideal S128x64 .f32) :
    FVec Ideal S50000x128 .f32 :=
  Sage.dense true (N := 50000) (K := 64) (D := 128) (agg64 g x1) g
    (transpose S64x128 [1, 0] x5 transposes_S128x64_S64x128_1_0) (transpose S64x128 [1, 0] x7 transposes_S128x64_S64x128_1_0)
    (shapeCast _ x6 shapeCasts_S128_S1x128)

def h3 (g : FVec Ideal S50000x128 .f32) (x1 : Edges) (x8 : FVec Ideal S128x128 .f32) (x9 : FVec Ideal S128 .f32) (x10 : FVec Ideal S128x128 .f32) :
    FVec Ideal S50000x128 .f32 :=
  Sage.dense true (N := 50000) (K := 128) (D := 128) (agg128 g x1) g
    (transpose S128x128 [1, 0] x8 transposes_S128x128_S128x128_1_0) (transpose S128x128 [1, 0] x10 transposes_S128x128_S128x128_1_0)
    (shapeCast _ x9 shapeCasts_S128_S1x128)

def h4 (g : FVec Ideal S50000x128 .f32) (x1 : Edges) (x11 : FVec Ideal S64x128 .f32) (x12 : FVec Ideal S64 .f32) (x13 : FVec Ideal S64x128 .f32) :
    FVec Ideal S50000x64 .f32 :=
  Sage.dense false (N := 50000) (K := 128) (D := 64) (agg128 g x1) g
    (transpose S128x64 [1, 0] x11 transposes_S64x128_S128x64_1_0) (transpose S128x64 [1, 0] x13 transposes_S64x128_S128x64_1_0)
    (shapeCast _ x12 shapeCasts_S64_S1x64)

end Cert.KernelIdeal.Hand

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.Step0.lean ====
/-
  Launch 0 of the dense step: what its output array holds after the launch.

  The grid has ten points; point `t` reads rows `5000·t … 5000·t + 4999` of the two row-blocked operands (the
  normalised neighbour sums and the nodes' own features), the two weight matrices and the bias row whole, and writes
  rows `5000·t … 5000·t + 4999` of the output.  Each output entry depends only on its own row of the two operands, so
  the block a point writes is the restriction of ONE whole-array function, `Sage.dense`, and the ten blocks tile the
  output: after the launch the output array is that function of the arrays the launch found.
-/
import proofs.«138681_j26860725469213_1_alg».proof.Proof.Gen.KernelIdeal.Frame
import proofs.«138681_j26860725469213_1_alg».proof.Proof.Spec
import proofs.«138681_j26860725469213_1_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Step0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The product's dimension record: which operand coordinate is the output's, which the contracted one -/

theorem dl0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dl1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem dr0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem dr1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The body's arithmetic at one entry -/

/-- Entry `(p, j)` of what the body stores: the two row-by-column products of the point's blocks, added, plus the
    bias entry, clamped at zero.  (A change of float format is the identity at the exact values.) -/
theorem pay_apply (x0 x1 : FVec Ideal S5000x128 .f32) (x2 x3 : FVec Ideal S128x64 .f32) (x4 : FVec Ideal S1x64 .f32)
    (p : Fin 5000) (j : Fin 64) :
    k0_pay1 (F := Ideal) x0 x1 x2 x3 x4 (ix2 p j) = Sage.denseAt true x0 x1 x2 x3 x4 p j := by
  unfold k0_pay1 Sage.denseAt Sage.act
  simp only [shapeCast_self]
  show max ((matmul dot_S5000x128_S128x64_S5000x64_1_0_0_1_n_n none _ _ _ (ix2 p j) + matmul dot_S5000x128_S128x64_S5000x64_1_0_0_1_n_n none _ _ _ (ix2 p j)) + broadcastTo S5000x64 x4 _ (ix2 p j)) _ = _
  rw [Cert.LibMatmulRows.matmul_zero_apply dot_S5000x128_S128x64_S5000x64_1_0_0_1_n_n rfl rfl dl0 dl1 dr0 dr1,
    Cert.LibMatmulRows.matmul_zero_apply dot_S5000x128_S128x64_S5000x64_1_0_0_1_n_n rfl rfl dl0 dl1 dr0 dr1, broadcastTo_1b_ab_apply]
  rfl

/-! ## The windows' blocks as rows of their arrays -/

/-- The printed index maps over the grid: the two row-blocked operands and the output move with the point along
    the rows; the weights and the bias stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `x 0` of the first operand's block at point `t` is row `5000·t + x 0` of its array. -/
theorem blkA (c : Dev nD) (t : Fin cfg0.N) (x : S5000x128.Idx) (y : S50000x128.Idx)
    (h0 : (y 0).val = 5000 * t.val + (x 0).val) (h1 : (y 1).val = (x 1).val) :
    (iblk0 V c 0 t : FVec Ideal S5000x128 .f32) x = (V c main_v24 : FVec Ideal S50000x128 .f32) y := by
  obtain ⟨e0, e1, -⟩ := idx_facts t
  show V c main_v24 (((cfg0.win 0).blk t).view.emb x) = V c main_v24 y
  refine congrArg _ (funext fun a => Fin.ext ?_)
  match a with
  | ⟨0, _⟩ => show win0_0.index t (0 : Fin 2) * 5000 + 1 * (x 0).val = (y 0).val; omega
  | ⟨1, _⟩ => show win0_0.index t (1 : Fin 2) * 128 + 1 * (x 1).val = (y 1).val; omega

/-- The same for the second operand. -/
theorem blkX (c : Dev nD) (t : Fin cfg0.N) (x : S5000x128.Idx) (y : S50000x128.Idx)
    (h0 : (y 0).val = 5000 * t.val + (x 0).val) (h1 : (y 1).val = (x 1).val) :
    (iblk0 V c 1 t : FVec Ideal S5000x128 .f32) x = (V c main_arg0 : FVec Ideal S50000x128 .f32) y := by
  obtain ⟨-, -, e0, e1, -⟩ := idx_facts t
  show V c main_arg0 (((cfg0.win 1).blk t).view.emb x) = V c main_arg0 y
  refine congrArg _ (funext fun a => Fin.ext ?_)
  match a with
  | ⟨0, _⟩ => show win0_1.index t (0 : Fin 2) * 5000 + 1 * (x 0).val = (y 0).val; omega
  | ⟨1, _⟩ => show win0_1.index t (1 : Fin 2) * 128 + 1 * (x 1).val = (y 1).val; omega

/-- The first weight matrix's one block is the whole matrix. -/
theorem blkWl (c : Dev nD) (t : Fin cfg0.N) (x : S128x64.Idx) :
    (iblk0 V c 2 t : FVec Ideal S128x64 .f32) x = (V c main_v25 : FVec Ideal S128x64 .f32) x := by
  obtain ⟨-, -, -, -, e0, e1, -⟩ := idx_facts t
  show V c main_v25 (((cfg0.win 2).blk t).view.emb x) = V c main_v25 x
  refine congrArg _ (funext fun a => Fin.ext ?_)
  match a with
  | ⟨0, _⟩ => show win0_2.index t (0 : Fin 2) * 128 + 1 * (x 0).val = (x 0).val; omega
  | ⟨1, _⟩ => show win0_2.index t (1 : Fin 2) * 64 + 1 * (x 1).val = (x 1).val; omega

/-- The second weight matrix's one block is the whole matrix. -/
theorem blkWr (c : Dev nD) (t : Fin cfg0.N) (x : S128x64.Idx) :
    (iblk0 V c 3 t : FVec Ideal S128x64 .f32) x = (V c main_v26 : FVec Ideal S128x64 .f32) x := by
  obtain ⟨-, -, -, -, -, -, e0, e1, -⟩ := idx_facts t
  show V c main_v26 (((cfg0.win 3).blk t).view.emb x) = V c main_v26 x
  refine congrArg _ (funext fun a => Fin.ext ?_)
  match a with
  | ⟨0, _⟩ => show win0_3.index t (0 : Fin 2) * 128 + 1 * (x 0).val = (x 0).val; omega
  | ⟨1, _⟩ => show win0_3.index t (1 : Fin 2) * 64 + 1 * (x 1).val = (x 1).val; omega

/-- The bias row's one block is the whole row. -/
theorem blkB (c : Dev nD) (t : Fin cfg0.N) (x : S1x64.Idx) :
    (iblk0 V c 4 t : FVec Ideal S1x64 .f32) x = (V c main_v27 : FVec Ideal S1x64 .f32) x := by
  obtain ⟨-, -, -, -, -, -, -, -, e0, e1, -⟩ := idx_facts t
  show V c main_v27 (((cfg0.win 4).blk t).view.emb x) = V c main_v27 x
  refine congrArg _ (funext fun a => Fin.ext ?_)
  match a with
  | ⟨0, _⟩ => show win0_4.index t (0 : Fin 2) * 1 + 1 * (x 0).val = (x 0).val; omega
  | ⟨1, _⟩ => show win0_4.index t (1 : Fin 2) * 64 + 1 * (x 1).val = (x 1).val; omega

/-! ## From the blocks to the array -/

/-- The output array after the launch, as a function of the arrays the launch found. -/
abbrev outArr (c : Dev nD) : FVec Ideal S50000x64 .f32 :=
  Sage.dense true (N := 50000) (K := 128) (D := 64) (V c main_v24) (V c main_arg0) (V c main_v25) (V c main_v26) (V c main_v27)

/-- What point `t` writes back is block `t` of `outArr`. -/
theorem flushed_eq (c : Dev nD) (t : Fin cfg0.N) :
    (dat0 V c).flushed 5 t = ((cfg0.win 5).blk t).view.read (Elt Ideal) (outArr V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  obtain ⟨-, -, -, -, -, -, -, -, -, -, e0, e1⟩ := idx_facts t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = outArr V c (((cfg0.win 5).blk t).view.emb (ix2 p q))
  refine (pay_apply _ _ _ _ _ p q).trans ?_
  have hr : ((((cfg0.win 5).blk t).view.emb (ix2 p q)) 0).val = 5000 * t.val + p.val := by
    show win0_5.index t (0 : Fin 2) * 5000 + 1 * p.val = _; omega
  have hc : ((((cfg0.win 5).blk t).view.emb (ix2 p q)) 1).val = q.val := by
    show win0_5.index t (1 : Fin 2) * 64 + 1 * q.val = _; omega
  show Sage.denseAt true _ _ _ _ _ p q = Sage.denseAt true _ _ _ _ _ ⟨_, _⟩ ⟨_, _⟩
  unfold Sage.denseAt
  refine congrArg (Sage.act true) (congrArg₂ (· + ·) (congrArg₂ (· + ·) (Finset.sum_congr rfl fun k _ => ?_) (Finset.sum_congr rfl fun k _ => ?_)) ?_)
  · exact congrArg₂ (· * ·) (blkA V c t _ _ hr rfl) ((blkWl V c t _).trans (congrArg _ (funext fun a => Fin.ext (by
      match a with
      | ⟨0, _⟩ => rfl
      | ⟨1, _⟩ => exact hc.symm))))
  · exact congrArg₂ (· * ·) (blkX V c t _ _ hr rfl) ((blkWr V c t _).trans (congrArg _ (funext fun a => Fin.ext (by
      match a with
      | ⟨0, _⟩ => rfl
      | ⟨1, _⟩ => exact hc.symm))))
  · exact (blkB V c t _).trans (congrArg _ (funext fun a => Fin.ext (by
      match a with
      | ⟨0, _⟩ => rfl
      | ⟨1, _⟩ => exact hc.symm)))

/-- An index of the output array is in point `t`'s block iff its row is one of the block's 5000 rows. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v28).slice (win0_5.rect t)).set ↔ _
  rw [View.set_slice_whole, Rect.mem_set_unit]
  exact Iff.rfl

/-- Every row belongs to the block of the point `row / 5000`. -/
theorem cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_5 _, ?_⟩
  rw [mem_blk]
  obtain ⟨-, -, -, -, -, -, -, -, -, -, e0, e1⟩ := idx_facts ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e1]; omega

/-- The output array after the launch. -/
theorem arr_out (c : Dev nD) : (dat0 V c).arrAt 5 cfg0.N = outArr V c :=
  (dat0 V c).arrAt_eq_of_cover 5 (outArr V c) (fun t _ => flushed_eq V c t) (cover)

end Cert.KernelIdeal.Step0

end
-- ==== Proof.Step1.lean ====
/-
  Launch 1 of the dense step: what its output array holds after the launch.

  The grid has ten points; point `t` reads rows `5000·t … 5000·t + 4999` of the two row-blocked operands (the
  normalised neighbour sums and the nodes' own features), the two weight matrices and the bias row whole, and writes
  rows `5000·t … 5000·t + 4999` of the output.  Each output entry depends only on its own row of the two operands, so
  the block a point writes is the restriction of ONE whole-array function, `Sage.dense`, and the ten blocks tile the
  output: after the launch the output array is that function of the arrays the launch found.
-/
import proofs.«138681_j26860725469213_1_alg».proof.Proof.Gen.KernelIdeal.Frame
import proofs.«138681_j26860725469213_1_alg».proof.Proof.Spec
import proofs.«138681_j26860725469213_1_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Step1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The product's dimension record: which operand coordinate is the output's, which the contracted one -/

theorem dl0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem dl1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem dr0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem dr1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-! ## The body's arithmetic at one entry -/

/-- Entry `(p, j)` of what the body stores: the two row-by-column products of the point's blocks, added, plus the
    bias entry, clamped at zero.  (A change of float format is the identity at the exact values.) -/
theorem pay_apply (x0 x1 : FVec Ideal S5000x64 .f32) (x2 x3 : FVec Ideal S64x128 .f32) (x4 : FVec Ideal S1x128 .f32)
    (p : Fin 5000) (j : Fin 128) :
    k1_pay1 (F := Ideal) x0 x1 x2 x3 x4 (ix2 p j) = Sage.denseAt true x0 x1 x2 x3 x4 p j := by
  unfold k1_pay1 Sage.denseAt Sage.act
  simp only [shapeCast_self]
  show max ((matmul dot_S5000x64_S64x128_S5000x128_1_0_0_1_n_n none _ _ _ (ix2 p j) + matmul dot_S5000x64_S64x128_S5000x128_1_0_0_1_n_n none _ _ _ (ix2 p j)) + broadcastTo S5000x128 x4 _ (ix2 p j)) _ = _
  rw [Cert.LibMatmulRows.matmul_zero_apply dot_S5000x64_S64x128_S5000x128_1_0_0_1_n_n rfl rfl dl0 dl1 dr0 dr1,
    Cert.LibMatmulRows.matmul_zero_apply dot_S5000x64_S64x128_S5000x128_1_0_0_1_n_n rfl rfl dl0 dl1 dr0 dr1, broadcastTo_1b_ab_apply]
  rfl

/-! ## The windows' blocks as rows of their arrays -/

/-- The printed index maps over the grid: the two row-blocked operands and the output move with the point along
    the rows; the weights and the bias stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `x 0` of the first operand's block at point `t` is row `5000·t + x 0` of its array. -/
theorem blkA (c : Dev nD) (t : Fin cfg1.N) (x : S5000x64.Idx) (y : S50000x64.Idx)
    (h0 : (y 0).val = 5000 * t.val + (x 0).val) (h1 : (y 1).val = (x 1).val) :
    (iblk1 V c 0 t : FVec Ideal S5000x64 .f32) x = (V c main_v40 : FVec Ideal S50000x64 .f32) y := by
  obtain ⟨e0, e1, -⟩ := idx_facts t
  show V c main_v40 (((cfg1.win 0).blk t).view.emb x) = V c main_v40 y
  refine congrArg _ (funext fun a => Fin.ext ?_)
  match a with
  | ⟨0, _⟩ => show win1_0.index t (0 : Fin 2) * 5000 + 1 * (x 0).val = (y 0).val; omega
  | ⟨1, _⟩ => show win1_0.index t (1 : Fin 2) * 64 + 1 * (x 1).val = (y 1).val; omega

/-- The same for the second operand. -/
theorem blkX (c : Dev nD) (t : Fin cfg1.N) (x : S5000x64.Idx) (y : S50000x64.Idx)
    (h0 : (y 0).val = 5000 * t.val + (x 0).val) (h1 : (y 1).val = (x 1).val) :
    (iblk1 V c 1 t : FVec Ideal S5000x64 .f32) x = (V c main_v28 : FVec Ideal S50000x64 .f32) y := by
  obtain ⟨-, -, e0, e1, -⟩ := idx_facts t
  show V c main_v28 (((cfg1.win 1).blk t).view.emb x) = V c main_v28 y
  refine congrArg _ (funext fun a => Fin.ext ?_)
  match a with
  | ⟨0, _⟩ => show win1_1.index t (0 : Fin 2) * 5000 + 1 * (x 0).val = (y 0).val; omega
  | ⟨1, _⟩ => show win1_1.index t (1 : Fin 2) * 64 + 1 * (x 1).val = (y 1).val; omega

/-- The first weight matrix's one block is the whole matrix. -/
theorem blkWl (c : Dev nD) (t : Fin cfg1.N) (x : S64x128.Idx) :
    (iblk1 V c 2 t : FVec Ideal S64x128 .f32) x = (V c main_v41 : FVec Ideal S64x128 .f32) x := by
  obtain ⟨-, -, -, -, e0, e1, -⟩ := idx_facts t
  show V c main_v41 (((cfg1.win 2).blk t).view.emb x) = V c main_v41 x
  refine congrArg _ (funext fun a => Fin.ext ?_)
  match a with
  | ⟨0, _⟩ => show win1_2.index t (0 : Fin 2) * 64 + 1 * (x 0).val = (x 0).val; omega
  | ⟨1, _⟩ => show win1_2.index t (1 : Fin 2) * 128 + 1 * (x 1).val = (x 1).val; omega

/-- The second weight matrix's one block is the whole matrix. -/
theorem blkWr (c : Dev nD) (t : Fin cfg1.N) (x : S64x128.Idx) :
    (iblk1 V c 3 t : FVec Ideal S64x128 .f32) x = (V c main_v42 : FVec Ideal S64x128 .f32) x := by
  obtain ⟨-, -, -, -, -, -, e0, e1, -⟩ := idx_facts t
  show V c main_v42 (((cfg1.win 3).blk t).view.emb x) = V c main_v42 x
  refine congrArg _ (funext fun a => Fin.ext ?_)
  match a with
  | ⟨0, _⟩ => show win1_3.index t (0 : Fin 2) * 64 + 1 * (x 0).val = (x 0).val; omega
  | ⟨1, _⟩ => show win1_3.index t (1 : Fin 2) * 128 + 1 * (x 1).val = (x 1).val; omega

/-- The bias row's one block is the whole row. -/
theorem blkB (c : Dev nD) (t : Fin cfg1.N) (x : S1x128.Idx) :
    (iblk1 V c 4 t : FVec Ideal S1x128 .f32) x = (V c main_v43 : FVec Ideal S1x128 .f32) x := by
  obtain ⟨-, -, -, -, -, -, -, -, e0, e1, -⟩ := idx_facts t
  show V c main_v43 (((cfg1.win 4).blk t).view.emb x) = V c main_v43 x
  refine congrArg _ (funext fun a => Fin.ext ?_)
  match a with
  | ⟨0, _⟩ => show win1_4.index t (0 : Fin 2) * 1 + 1 * (x 0).val = (x 0).val; omega
  | ⟨1, _⟩ => show win1_4.index t (1 : Fin 2) * 128 + 1 * (x 1).val = (x 1).val; omega

/-! ## From the blocks to the array -/

/-- The output array after the launch, as a function of the arrays the launch found. -/
abbrev outArr (c : Dev nD) : FVec Ideal S50000x128 .f32 :=
  Sage.dense true (N := 50000) (K := 64) (D := 128) (V c main_v40) (V c main_v28) (V c main_v41) (V c main_v42) (V c main_v43)

/-- What point `t` writes back is block `t` of `outArr`. -/
theorem flushed_eq (c : Dev nD) (t : Fin cfg1.N) :
    (dat1 V c).flushed 5 t = ((cfg1.win 5).blk t).view.read (Elt Ideal) (outArr V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x128) hz, View.ld_unit_zero (S := S1x128) hz]
  obtain ⟨-, -, -, -, -, -, -, -, -, -, e0, e1⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = outArr V c (((cfg1.win 5).blk t).view.emb (ix2 p q))
  refine (pay_apply _ _ _ _ _ p q).trans ?_
  have hr : ((((cfg1.win 5).blk t).view.emb (ix2 p q)) 0).val = 5000 * t.val + p.val := by
    show win1_5.index t (0 : Fin 2) * 5000 + 1 * p.val = _; omega
  have hc : ((((cfg1.win 5).blk t).view.emb (ix2 p q)) 1).val = q.val := by
    show win1_5.index t (1 : Fin 2) * 128 + 1 * q.val = _; omega
  show Sage.denseAt true _ _ _ _ _ p q = Sage.denseAt true _ _ _ _ _ ⟨_, _⟩ ⟨_, _⟩
  unfold Sage.denseAt
  refine congrArg (Sage.act true) (congrArg₂ (· + ·) (congrArg₂ (· + ·) (Finset.sum_congr rfl fun k _ => ?_) (Finset.sum_congr rfl fun k _ => ?_)) ?_)
  · exact congrArg₂ (· * ·) (blkA V c t _ _ hr rfl) ((blkWl V c t _).trans (congrArg _ (funext fun a => Fin.ext (by
      match a with
      | ⟨0, _⟩ => rfl
      | ⟨1, _⟩ => exact hc.symm))))
  · exact congrArg₂ (· * ·) (blkX V c t _ _ hr rfl) ((blkWr V c t _).trans (congrArg _ (funext fun a => Fin.ext (by
      match a with
      | ⟨0, _⟩ => rfl
      | ⟨1, _⟩ => exact hc.symm))))
  · exact (blkB V c t _).trans (congrArg _ (funext fun a => Fin.ext (by
      match a with
      | ⟨0, _⟩ => rfl
      | ⟨1, _⟩ => exact hc.symm)))

/-- An index of the output array is in point `t`'s block iff its row is one of the block's 5000 rows. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- Every row belongs to the block of the point `row / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk]
  obtain ⟨-, -, -, -, -, -, -, -, -, -, e0, e1⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- The output array after the launch. -/
theorem arr_out (c : Dev nD) : (dat1 V c).arrAt 5 cfg1.N = outArr V c :=
  (dat1 V c).arrAt_eq_of_cover 5 (outArr V c) (fun t _ => flushed_eq V c t) (cover)

end Cert.KernelIdeal.Step1

end
-- ==== Proof.Step2.lean ====
/-
  Launch 2 of the dense step: what its output array holds after the launch.

  The grid has ten points; point `t` reads rows `5000·t … 5000·t + 4999` of the two row-blocked operands (the
  normalised neighbour sums and the nodes' own features), the two weight matrices and the bias row whole, and writes
  rows `5000·t … 5000·t + 4999` of the output.  Each output entry depends only on its own row of the two operands, so
  the block a point writes is the restriction of ONE whole-array function, `Sage.dense`, and the ten blocks tile the
  output: after the launch the output array is that function of the arrays the launch found.
-/
import proofs.«138681_j26860725469213_1_alg».proof.Proof.Gen.KernelIdeal.Frame
import proofs.«138681_j26860725469213_1_alg».proof.Proof.Spec
import proofs.«138681_j26860725469213_1_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Step2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The product's dimension record: which operand coordinate is the output's, which the contracted one -/

theorem dl0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dl1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem dr0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem dr1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's arithmetic at one entry -/

/-- Entry `(p, j)` of what the body stores: the two row-by-column products of the point's blocks, added, plus the
    bias entry, clamped at zero.  (A change of float format is the identity at the exact values.) -/
theorem pay_apply (x0 x1 : FVec Ideal S5000x128 .f32) (x2 x3 : FVec Ideal S128x128 .f32) (x4 : FVec Ideal S1x128 .f32)
    (p : Fin 5000) (j : Fin 128) :
    k2_pay1 (F := Ideal) x0 x1 x2 x3 x4 (ix2 p j) = Sage.denseAt true x0 x1 x2 x3 x4 p j := by
  unfold k2_pay1 Sage.denseAt Sage.act
  simp only [shapeCast_self]
  show max ((matmul dot_S5000x128_S128x128_S5000x128_1_0_0_1_n_n none _ _ _ (ix2 p j) + matmul dot_S5000x128_S128x128_S5000x128_1_0_0_1_n_n none _ _ _ (ix2 p j)) + broadcastTo S5000x128 x4 _ (ix2 p j)) _ = _
  rw [Cert.LibMatmulRows.matmul_zero_apply dot_S5000x128_S128x128_S5000x128_1_0_0_1_n_n rfl rfl dl0 dl1 dr0 dr1,
    Cert.LibMatmulRows.matmul_zero_apply dot_S5000x128_S128x128_S5000x128_1_0_0_1_n_n rfl rfl dl0 dl1 dr0 dr1, broadcastTo_1b_ab_apply]
  rfl

/-! ## The windows' blocks as rows of their arrays -/

/-- The printed index maps over the grid: the two row-blocked operands and the output move with the point along
    the rows; the weights and the bias stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `x 0` of the first operand's block at point `t` is row `5000·t + x 0` of its array. -/
theorem blkA (c : Dev nD) (t : Fin cfg2.N) (x : S5000x128.Idx) (y : S50000x128.Idx)
    (h0 : (y 0).val = 5000 * t.val + (x 0).val) (h1 : (y 1).val = (x 1).val) :
    (iblk2 V c 0 t : FVec Ideal S5000x128 .f32) x = (V c main_v56 : FVec Ideal S50000x128 .f32) y := by
  obtain ⟨e0, e1, -⟩ := idx_facts t
  show V c main_v56 (((cfg2.win 0).blk t).view.emb x) = V c main_v56 y
  refine congrArg _ (funext fun a => Fin.ext ?_)
  match a with
  | ⟨0, _⟩ => show win2_0.index t (0 : Fin 2) * 5000 + 1 * (x 0).val = (y 0).val; omega
  | ⟨1, _⟩ => show win2_0.index t (1 : Fin 2) * 128 + 1 * (x 1).val = (y 1).val; omega

/-- The same for the second operand. -/
theorem blkX (c : Dev nD) (t : Fin cfg2.N) (x : S5000x128.Idx) (y : S50000x128.Idx)
    (h0 : (y 0).val = 5000 * t.val + (x 0).val) (h1 : (y 1).val = (x 1).val) :
    (iblk2 V c 1 t : FVec Ideal S5000x128 .f32) x = (V c main_v44 : FVec Ideal S50000x128 .f32) y := by
  obtain ⟨-, -, e0, e1, -⟩ := idx_facts t
  show V c main_v44 (((cfg2.win 1).blk t).view.emb x) = V c main_v44 y
  refine congrArg _ (funext fun a => Fin.ext ?_)
  match a with
  | ⟨0, _⟩ => show win2_1.index t (0 : Fin 2) * 5000 + 1 * (x 0).val = (y 0).val; omega
  | ⟨1, _⟩ => show win2_1.index t (1 : Fin 2) * 128 + 1 * (x 1).val = (y 1).val; omega

/-- The first weight matrix's one block is the whole matrix. -/
theorem blkWl (c : Dev nD) (t : Fin cfg2.N) (x : S128x128.Idx) :
    (iblk2 V c 2 t : FVec Ideal S128x128 .f32) x = (V c main_v57 : FVec Ideal S128x128 .f32) x := by
  obtain ⟨-, -, -, -, e0, e1, -⟩ := idx_facts t
  show V c main_v57 (((cfg2.win 2).blk t).view.emb x) = V c main_v57 x
  refine congrArg _ (funext fun a => Fin.ext ?_)
  match a with
  | ⟨0, _⟩ => show win2_2.index t (0 : Fin 2) * 128 + 1 * (x 0).val = (x 0).val; omega
  | ⟨1, _⟩ => show win2_2.index t (1 : Fin 2) * 128 + 1 * (x 1).val = (x 1).val; omega

/-- The second weight matrix's one block is the whole matrix. -/
theorem blkWr (c : Dev nD) (t : Fin cfg2.N) (x : S128x128.Idx) :
    (iblk2 V c 3 t : FVec Ideal S128x128 .f32) x = (V c main_v58 : FVec Ideal S128x128 .f32) x := by
  obtain ⟨-, -, -, -, -, -, e0, e1, -⟩ := idx_facts t
  show V c main_v58 (((cfg2.win 3).blk t).view.emb x) = V c main_v58 x
  refine congrArg _ (funext fun a => Fin.ext ?_)
  match a with
  | ⟨0, _⟩ => show win2_3.index t (0 : Fin 2) * 128 + 1 * (x 0).val = (x 0).val; omega
  | ⟨1, _⟩ => show win2_3.index t (1 : Fin 2) * 128 + 1 * (x 1).val = (x 1).val; omega

/-- The bias row's one block is the whole row. -/
theorem blkB (c : Dev nD) (t : Fin cfg2.N) (x : S1x128.Idx) :
    (iblk2 V c 4 t : FVec Ideal S1x128 .f32) x = (V c main_v59 : FVec Ideal S1x128 .f32) x := by
  obtain ⟨-, -, -, -, -, -, -, -, e0, e1, -⟩ := idx_facts t
  show V c main_v59 (((cfg2.win 4).blk t).view.emb x) = V c main_v59 x
  refine congrArg _ (funext fun a => Fin.ext ?_)
  match a with
  | ⟨0, _⟩ => show win2_4.index t (0 : Fin 2) * 1 + 1 * (x 0).val = (x 0).val; omega
  | ⟨1, _⟩ => show win2_4.index t (1 : Fin 2) * 128 + 1 * (x 1).val = (x 1).val; omega

/-! ## From the blocks to the array -/

/-- The output array after the launch, as a function of the arrays the launch found. -/
abbrev outArr (c : Dev nD) : FVec Ideal S50000x128 .f32 :=
  Sage.dense true (N := 50000) (K := 128) (D := 128) (V c main_v56) (V c main_v44) (V c main_v57) (V c main_v58) (V c main_v59)

/-- What point `t` writes back is block `t` of `outArr`. -/
theorem flushed_eq (c : Dev nD) (t : Fin cfg2.N) :
    (dat2 V c).flushed 5 t = ((cfg2.win 5).blk t).view.read (Elt Ideal) (outArr V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = outArr V c (((cfg2.win 5).blk t).view.emb (ix2 p q))
  refine (pay_apply _ _ _ _ _ p q).trans ?_
  have hr : ((((cfg2.win 5).blk t).view.emb (ix2 p q)) 0).val = 5000 * t.val + p.val := by
    show win2_5.index t (0 : Fin 2) * 5000 + 1 * p.val = _; omega
  have hc : ((((cfg2.win 5).blk t).view.emb (ix2 p q)) 1).val = q.val := by
    show win2_5.index t (1 : Fin 2) * 128 + 1 * q.val = _; omega
  show Sage.denseAt true _ _ _ _ _ p q = Sage.denseAt true _ _ _ _ _ ⟨_, _⟩ ⟨_, _⟩
  unfold Sage.denseAt
  refine congrArg (Sage.act true) (congrArg₂ (· + ·) (congrArg₂ (· + ·) (Finset.sum_congr rfl fun k _ => ?_) (Finset.sum_congr rfl fun k _ => ?_)) ?_)
  · exact congrArg₂ (· * ·) (blkA V c t _ _ hr rfl) ((blkWl V c t _).trans (congrArg _ (funext fun a => Fin.ext (by
      match a with
      | ⟨0, _⟩ => rfl
      | ⟨1, _⟩ => exact hc.symm))))
  · exact congrArg₂ (· * ·) (blkX V c t _ _ hr rfl) ((blkWr V c t _).trans (congrArg _ (funext fun a => Fin.ext (by
      match a with
      | ⟨0, _⟩ => rfl
      | ⟨1, _⟩ => exact hc.symm))))
  · exact (blkB V c t _).trans (congrArg _ (funext fun a => Fin.ext (by
      match a with
      | ⟨0, _⟩ => rfl
      | ⟨1, _⟩ => exact hc.symm)))

/-- An index of the output array is in point `t`'s block iff its row is one of the block's 5000 rows. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v60).slice (win2_5.rect t)).set ↔ _
  rw [View.set_slice_whole, Rect.mem_set_unit]
  exact Iff.rfl

/-- Every row belongs to the block of the point `row / 5000`. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_5 _, ?_⟩
  rw [mem_blk]
  obtain ⟨-, -, -, -, -, -, -, -, -, -, e0, e1⟩ := idx_facts ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [e1]; omega

/-- The output array after the launch. -/
theorem arr_out (c : Dev nD) : (dat2 V c).arrAt 5 cfg2.N = outArr V c :=
  (dat2 V c).arrAt_eq_of_cover 5 (outArr V c) (fun t _ => flushed_eq V c t) (cover)

end Cert.KernelIdeal.Step2

end
-- ==== Proof.Step3.lean ====
/-
  Launch 3 of the dense step: what its output array holds after the launch.

  The grid has ten points; point `t` reads rows `5000·t … 5000·t + 4999` of the two row-blocked operands (the
  normalised neighbour sums and the nodes' own features), the two weight matrices and the bias row whole, and writes
  rows `5000·t … 5000·t + 4999` of the output.  Each output entry depends only on its own row of the two operands, so
  the block a point writes is the restriction of ONE whole-array function, `Sage.dense`, and the ten blocks tile the
  output: after the launch the output array is that function of the arrays the launch found.
-/
import proofs.«138681_j26860725469213_1_alg».proof.Proof.Gen.KernelIdeal.Frame
import proofs.«138681_j26860725469213_1_alg».proof.Proof.Spec
import proofs.«138681_j26860725469213_1_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Step3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The product's dimension record: which operand coordinate is the output's, which the contracted one -/

theorem dl0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dl1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem dr0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem dr1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The body's arithmetic at one entry -/

/-- Entry `(p, j)` of what the body stores: the two row-by-column products of the point's blocks, added, plus the
    bias entry.  (A change of float format is the identity at the exact values.) -/
theorem pay_apply (x0 x1 : FVec Ideal S5000x128 .f32) (x2 x3 : FVec Ideal S128x64 .f32) (x4 : FVec Ideal S1x64 .f32)
    (p : Fin 5000) (j : Fin 64) :
    k3_pay1 (F := Ideal) x0 x1 x2 x3 x4 (ix2 p j) = Sage.denseAt false x0 x1 x2 x3 x4 p j := by
  unfold k3_pay1 Sage.denseAt Sage.act
  simp only [shapeCast_self]
  show (matmul dot_S5000x128_S128x64_S5000x64_1_0_0_1_n_n none _ _ _ (ix2 p j) + matmul dot_S5000x128_S128x64_S5000x64_1_0_0_1_n_n none _ _ _ (ix2 p j)) + broadcastTo S5000x64 x4 _ (ix2 p j) = _
  rw [Cert.LibMatmulRows.matmul_zero_apply dot_S5000x128_S128x64_S5000x64_1_0_0_1_n_n rfl rfl dl0 dl1 dr0 dr1,
    Cert.LibMatmulRows.matmul_zero_apply dot_S5000x128_S128x64_S5000x64_1_0_0_1_n_n rfl rfl dl0 dl1 dr0 dr1, broadcastTo_1b_ab_apply]
  rfl

/-! ## The windows' blocks as rows of their arrays -/

/-- The printed index maps over the grid: the two row-blocked operands and the output move with the point along
    the rows; the weights and the bias stay at their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `x 0` of the first operand's block at point `t` is row `5000·t + x 0` of its array. -/
theorem blkA (c : Dev nD) (t : Fin cfg3.N) (x : S5000x128.Idx) (y : S50000x128.Idx)
    (h0 : (y 0).val = 5000 * t.val + (x 0).val) (h1 : (y 1).val = (x 1).val) :
    (iblk3 V c 0 t : FVec Ideal S5000x128 .f32) x = (V c main_v72 : FVec Ideal S50000x128 .f32) y := by
  obtain ⟨e0, e1, -⟩ := idx_facts t
  show V c main_v72 (((cfg3.win 0).blk t).view.emb x) = V c main_v72 y
  refine congrArg _ (funext fun a => Fin.ext ?_)
  match a with
  | ⟨0, _⟩ => show win3_0.index t (0 : Fin 2) * 5000 + 1 * (x 0).val = (y 0).val; omega
  | ⟨1, _⟩ => show win3_0.index t (1 : Fin 2) * 128 + 1 * (x 1).val = (y 1).val; omega

/-- The same for the second operand. -/
theorem blkX (c : Dev nD) (t : Fin cfg3.N) (x : S5000x128.Idx) (y : S50000x128.Idx)
    (h0 : (y 0).val = 5000 * t.val + (x 0).val) (h1 : (y 1).val = (x 1).val) :
    (iblk3 V c 1 t : FVec Ideal S5000x128 .f32) x = (V c main_v60 : FVec Ideal S50000x128 .f32) y := by
  obtain ⟨-, -, e0, e1, -⟩ := idx_facts t
  show V c main_v60 (((cfg3.win 1).blk t).view.emb x) = V c main_v60 y
  refine congrArg _ (funext fun a => Fin.ext ?_)
  match a with
  | ⟨0, _⟩ => show win3_1.index t (0 : Fin 2) * 5000 + 1 * (x 0).val = (y 0).val; omega
  | ⟨1, _⟩ => show win3_1.index t (1 : Fin 2) * 128 + 1 * (x 1).val = (y 1).val; omega

/-- The first weight matrix's one block is the whole matrix. -/
theorem blkWl (c : Dev nD) (t : Fin cfg3.N) (x : S128x64.Idx) :
    (iblk3 V c 2 t : FVec Ideal S128x64 .f32) x = (V c main_v73 : FVec Ideal S128x64 .f32) x := by
  obtain ⟨-, -, -, -, e0, e1, -⟩ := idx_facts t
  show V c main_v73 (((cfg3.win 2).blk t).view.emb x) = V c main_v73 x
  refine congrArg _ (funext fun a => Fin.ext ?_)
  match a with
  | ⟨0, _⟩ => show win3_2.index t (0 : Fin 2) * 128 + 1 * (x 0).val = (x 0).val; omega
  | ⟨1, _⟩ => show win3_2.index t (1 : Fin 2) * 64 + 1 * (x 1).val = (x 1).val; omega

/-- The second weight matrix's one block is the whole matrix. -/
theorem blkWr (c : Dev nD) (t : Fin cfg3.N) (x : S128x64.Idx) :
    (iblk3 V c 3 t : FVec Ideal S128x64 .f32) x = (V c main_v74 : FVec Ideal S128x64 .f32) x := by
  obtain ⟨-, -, -, -, -, -, e0, e1, -⟩ := idx_facts t
  show V c main_v74 (((cfg3.win 3).blk t).view.emb x) = V c main_v74 x
  refine congrArg _ (funext fun a => Fin.ext ?_)
  match a with
  | ⟨0, _⟩ => show win3_3.index t (0 : Fin 2) * 128 + 1 * (x 0).val = (x 0).val; omega
  | ⟨1, _⟩ => show win3_3.index t (1 : Fin 2) * 64 + 1 * (x 1).val = (x 1).val; omega

/-- The bias row's one block is the whole row. -/
theorem blkB (c : Dev nD) (t : Fin cfg3.N) (x : S1x64.Idx) :
    (iblk3 V c 4 t : FVec Ideal S1x64 .f32) x = (V c main_v75 : FVec Ideal S1x64 .f32) x := by
  obtain ⟨-, -, -, -, -, -, -, -, e0, e1, -⟩ := idx_facts t
  show V c main_v75 (((cfg3.win 4).blk t).view.emb x) = V c main_v75 x
  refine congrArg _ (funext fun a => Fin.ext ?_)
  match a with
  | ⟨0, _⟩ => show win3_4.index t (0 : Fin 2) * 1 + 1 * (x 0).val = (x 0).val; omega
  | ⟨1, _⟩ => show win3_4.index t (1 : Fin 2) * 64 + 1 * (x 1).val = (x 1).val; omega

/-! ## From the blocks to the array -/

/-- The output array after the launch, as a function of the arrays the launch found. -/
abbrev outArr (c : Dev nD) : FVec Ideal S50000x64 .f32 :=
  Sage.dense false (N := 50000) (K := 128) (D := 64) (V c main_v72) (V c main_v60) (V c main_v73) (V c main_v74) (V c main_v75)

/-- What point `t` writes back is block `t` of `outArr`. -/
theorem flushed_eq (c : Dev nD) (t : Fin cfg3.N) :
    (dat3 V c).flushed 5 t = ((cfg3.win 5).blk t).view.read (Elt Ideal) (outArr V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x64) hz, View.ld_unit_zero (S := S1x64) hz]
  obtain ⟨-, -, -, -, -, -, -, -, -, -, e0, e1⟩ := idx_facts t
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
    = outArr V c (((cfg3.win 5).blk t).view.emb (ix2 p q))
  refine (pay_apply _ _ _ _ _ p q).trans ?_
  have hr : ((((cfg3.win 5).blk t).view.emb (ix2 p q)) 0).val = 5000 * t.val + p.val := by
    show win3_5.index t (0 : Fin 2) * 5000 + 1 * p.val = _; omega
  have hc : ((((cfg3.win 5).blk t).view.emb (ix2 p q)) 1).val = q.val := by
    show win3_5.index t (1 : Fin 2) * 64 + 1 * q.val = _; omega
  show Sage.denseAt false _ _ _ _ _ p q = Sage.denseAt false _ _ _ _ _ ⟨_, _⟩ ⟨_, _⟩
  unfold Sage.denseAt
  refine congrArg (Sage.act false) (congrArg₂ (· + ·) (congrArg₂ (· + ·) (Finset.sum_congr rfl fun k _ => ?_) (Finset.sum_congr rfl fun k _ => ?_)) ?_)
  · exact congrArg₂ (· * ·) (blkA V c t _ _ hr rfl) ((blkWl V c t _).trans (congrArg _ (funext fun a => Fin.ext (by
      match a with
      | ⟨0, _⟩ => rfl
      | ⟨1, _⟩ => exact hc.symm))))
  · exact congrArg₂ (· * ·) (blkX V c t _ _ hr rfl) ((blkWr V c t _).trans (congrArg _ (funext fun a => Fin.ext (by
      match a with
      | ⟨0, _⟩ => rfl
      | ⟨1, _⟩ => exact hc.symm))))
  · exact (blkB V c t _).trans (congrArg _ (funext fun a => Fin.ext (by
      match a with
      | ⟨0, _⟩ => rfl
      | ⟨1, _⟩ => exact hc.symm)))

/-- An index of the output array is in point `t`'s block iff its row is one of the block's 5000 rows. -/
theorem mem_blk (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v76).slice (win3_5.rect t)).set ↔ _
  rw [View.set_slice_whole, Rect.mem_set_unit]
  exact Iff.rfl

/-- Every row belongs to the block of the point `row / 5000`. -/
theorem cover (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 10 := N_3
  refine ⟨⟨(i 0).val / 5000, by rw [hN]; omega⟩, flush3_5 _, ?_⟩
  rw [mem_blk]
  obtain ⟨-, -, -, -, -, -, -, -, -, -, e0, e1⟩ := idx_facts ⟨(i 0).val / 5000, by rw [hN]; omega⟩
  intro a
  match a with
  | ⟨0, _⟩ =>
    show win3_5.index _ (0 : Fin 2) * 5000 ≤ (i 0).val ∧ (i 0).val < win3_5.index _ (0 : Fin 2) * 5000 + 5000
    rw [e0]; show (i 0).val / 5000 * 5000 ≤ (i 0).val ∧ (i 0).val < (i 0).val / 5000 * 5000 + 5000; omega
  | ⟨1, _⟩ =>
    show win3_5.index _ (1 : Fin 2) * 64 ≤ (i 1).val ∧ (i 1).val < win3_5.index _ (1 : Fin 2) * 64 + 64
    rw [e1]; omega

/-- The output array after the launch. -/
theorem arr_out (c : Dev nD) : (dat3 V c).arrAt 5 cfg3.N = outArr V c :=
  (dat3 V c).arrAt_eq_of_cover 5 (outArr V c) (fun t _ => flushed_eq V c t) (cover)

end Cert.KernelIdeal.Step3

end
-- ==== Proof.KernelChain.lean ====
/-
  The contents of the buffers the four launches read, boundary by boundary.

  The run's boundaries are numbered 0 (the launch memory) to 8 (the return).  An odd boundary follows a stretch of
  host operations: a buffer the stretch writes holds its operation's value of the operands' contents at the previous
  boundary, any other buffer is unchanged.  An even boundary follows a launch: its output array holds the dense step
  of the arrays it found (the launch modules), any other buffer is unchanged.  Walking the eight boundaries in order
  gives every buffer a launch reads as a function of the program's arguments, and in the end the result array.
-/
import proofs.«138681_j26860725469213_1_alg».proof.Proof.Gen.KernelIdeal.Frame
import proofs.«138681_j26860725469213_1_alg».proof.Proof.KernelTerm
import proofs.«138681_j26860725469213_1_alg».proof.Proof.Step0
import proofs.«138681_j26860725469213_1_alg».proof.Proof.Step1
import proofs.«138681_j26860725469213_1_alg».proof.Proof.Step2
import proofs.«138681_j26860725469213_1_alg».proof.Proof.Step3
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The features after each of the first three layers, as functions of the launch memory. -/
abbrev H1 (c : Dev nD) : FVec Ideal S50000x64 .f32 := h1 (m ((c : Thread nD τ).loc main_arg0)) (m ((c : Thread nD τ).loc main_arg1)) (m ((c : Thread nD τ).loc main_arg2)) (m ((c : Thread nD τ).loc main_arg3)) (m ((c : Thread nD τ).loc main_arg4))
abbrev H2 (c : Dev nD) : FVec Ideal S50000x128 .f32 := h2 (H1 m c) (m ((c : Thread nD τ).loc main_arg1)) (m ((c : Thread nD τ).loc main_arg5)) (m ((c : Thread nD τ).loc main_arg6)) (m ((c : Thread nD τ).loc main_arg7))
abbrev H3 (c : Dev nD) : FVec Ideal S50000x128 .f32 := h3 (H2 m c) (m ((c : Thread nD τ).loc main_arg1)) (m ((c : Thread nD τ).loc main_arg8)) (m ((c : Thread nD τ).loc main_arg9)) (m ((c : Thread nD τ).loc main_arg10))
abbrev H4 (c : Dev nD) : FVec Ideal S50000x64 .f32 := h4 (H3 m c) (m ((c : Thread nD τ).loc main_arg1)) (m ((c : Thread nD τ).loc main_arg11)) (m ((c : Thread nD τ).loc main_arg12)) (m ((c : Thread nD τ).loc main_arg13))

/-! ## Boundary 1: after host stretch 0 -/

set_option maxHeartbeats 4000000 in
theorem b1_v1 (c : Dev nD) : W1 m ρ c (Proc.devRef .tc main_v1) = srcV (m ((c : Thread nD τ).loc main_arg1)) := by
  show StableHlo.after hostOps0 (W0 m ρ c) (Proc.devRef .tc main_v1) = _
  after_results_simp <;> rfl
set_option maxHeartbeats 4000000 in
theorem b1_v3 (c : Dev nD) : W1 m ρ c (Proc.devRef .tc main_v3) = dstV (m ((c : Thread nD τ).loc main_arg1)) := by
  show StableHlo.after hostOps0 (W0 m ρ c) (Proc.devRef .tc main_v3) = _
  after_results_simp <;> rfl
set_option maxHeartbeats 4000000 in
theorem b1_v12 (c : Dev nD) : W1 m ρ c (Proc.devRef .tc main_v12) = invc (m ((c : Thread nD τ).loc main_arg1)) := by
  show StableHlo.after hostOps0 (W0 m ρ c) (Proc.devRef .tc main_v12) = _
  after_results_simp <;> rfl
set_option maxHeartbeats 4000000 in
theorem b1_v24 (c : Dev nD) : W1 m ρ c (Proc.devRef .tc main_v24) = agg128 (m ((c : Thread nD τ).loc main_arg0)) (m ((c : Thread nD τ).loc main_arg1)) := by
  show StableHlo.after hostOps0 (W0 m ρ c) (Proc.devRef .tc main_v24) = _
  after_results_simp <;> rfl
set_option maxHeartbeats 4000000 in
theorem b1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl
set_option maxHeartbeats 4000000 in
theorem b1_v25 (c : Dev nD) : W1 m ρ c (Proc.devRef .tc main_v25) = transpose S128x64 [1, 0] (m ((c : Thread nD τ).loc main_arg2)) transposes_S64x128_S128x64_1_0 := by
  show StableHlo.after hostOps0 (W0 m ρ c) (Proc.devRef .tc main_v25) = _
  after_results_simp <;> rfl
set_option maxHeartbeats 4000000 in
theorem b1_v26 (c : Dev nD) : W1 m ρ c (Proc.devRef .tc main_v26) = transpose S128x64 [1, 0] (m ((c : Thread nD τ).loc main_arg4)) transposes_S64x128_S128x64_1_0 := by
  show StableHlo.after hostOps0 (W0 m ρ c) (Proc.devRef .tc main_v26) = _
  after_results_simp <;> rfl
set_option maxHeartbeats 4000000 in
theorem b1_v27 (c : Dev nD) : W1 m ρ c (Proc.devRef .tc main_v27) = shapeCast S1x64 (m ((c : Thread nD τ).loc main_arg3)) shapeCasts_S64_S1x64 := by
  show StableHlo.after hostOps0 (W0 m ρ c) (Proc.devRef .tc main_v27) = _
  after_results_simp <;> rfl
set_option maxHeartbeats 4000000 in
theorem b1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl
set_option maxHeartbeats 4000000 in
theorem b1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl
set_option maxHeartbeats 4000000 in
theorem b1_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl
set_option maxHeartbeats 4000000 in
theorem b1_arg8 (c : Dev nD) : W1 m ρ c (Proc.devRef .tc main_arg8) = (m ((c : Thread nD τ).loc main_arg8)) := by
  show StableHlo.after hostOps0 (W0 m ρ c) (Proc.devRef .tc main_arg8) = _
  after_results_simp <;> rfl
set_option maxHeartbeats 4000000 in
theorem b1_arg9 (c : Dev nD) : W1 m ρ c (Proc.devRef .tc main_arg9) = (m ((c : Thread nD τ).loc main_arg9)) := by
  show StableHlo.after hostOps0 (W0 m ρ c) (Proc.devRef .tc main_arg9) = _
  after_results_simp <;> rfl
set_option maxHeartbeats 4000000 in
theorem b1_arg10 (c : Dev nD) : W1 m ρ c (Proc.devRef .tc main_arg10) = (m ((c : Thread nD τ).loc main_arg10)) := by
  show StableHlo.after hostOps0 (W0 m ρ c) (Proc.devRef .tc main_arg10) = _
  after_results_simp <;> rfl
set_option maxHeartbeats 4000000 in
theorem b1_arg11 (c : Dev nD) : W1 m ρ c (Proc.devRef .tc main_arg11) = (m ((c : Thread nD τ).loc main_arg11)) := by
  show StableHlo.after hostOps0 (W0 m ρ c) (Proc.devRef .tc main_arg11) = _
  after_results_simp <;> rfl
set_option maxHeartbeats 4000000 in
theorem b1_arg12 (c : Dev nD) : W1 m ρ c (Proc.devRef .tc main_arg12) = (m ((c : Thread nD τ).loc main_arg12)) := by
  show StableHlo.after hostOps0 (W0 m ρ c) (Proc.devRef .tc main_arg12) = _
  after_results_simp <;> rfl
set_option maxHeartbeats 4000000 in
theorem b1_arg13 (c : Dev nD) : W1 m ρ c (Proc.devRef .tc main_arg13) = (m ((c : Thread nD τ).loc main_arg13)) := by
  show StableHlo.after hostOps0 (W0 m ρ c) (Proc.devRef .tc main_arg13) = _
  after_results_simp <;> rfl

/-! ## Boundary 2: after launch 0 -/

theorem b2_v28 (c : Dev nD) : W2 m ρ c (Proc.devRef .tc main_v28) = H1 m c :=
  (W2_arr m ρ c 5).trans ((Cert.KernelIdeal.Step0.arr_out (V1 m ρ) c).trans (by
    show Sage.dense true (N := 50000) (K := 128) (D := 64) (W1 m ρ c (Proc.devRef .tc main_v24)) (W1 m ρ c (Proc.devRef .tc main_arg0)) (W1 m ρ c (Proc.devRef .tc main_v25)) (W1 m ρ c (Proc.devRef .tc main_v26)) (W1 m ρ c (Proc.devRef .tc main_v27)) = _
    rw [b1_v24 m ρ c, b1_arg0 m ρ c, b1_v25 m ρ c, b1_v26 m ρ c, b1_v27 m ρ c] <;> rfl))
theorem b2_v1 (c : Dev nD) : W2 m ρ c (Proc.devRef .tc main_v1) = srcV (m ((c : Thread nD τ).loc main_arg1)) :=
  (W2_of_ne m ρ c main_v1 (by decide)).trans (b1_v1 m ρ c)
theorem b2_v3 (c : Dev nD) : W2 m ρ c (Proc.devRef .tc main_v3) = dstV (m ((c : Thread nD τ).loc main_arg1)) :=
  (W2_of_ne m ρ c main_v3 (by decide)).trans (b1_v3 m ρ c)
theorem b2_v12 (c : Dev nD) : W2 m ρ c (Proc.devRef .tc main_v12) = invc (m ((c : Thread nD τ).loc main_arg1)) :=
  (W2_of_ne m ρ c main_v12 (by decide)).trans (b1_v12 m ρ c)
theorem b2_arg5 (c : Dev nD) : W2 m ρ c (Proc.devRef .tc main_arg5) = (m ((c : Thread nD τ).loc main_arg5)) :=
  (W2_of_ne m ρ c main_arg5 (by decide)).trans (b1_arg5 m ρ c)
theorem b2_arg6 (c : Dev nD) : W2 m ρ c (Proc.devRef .tc main_arg6) = (m ((c : Thread nD τ).loc main_arg6)) :=
  (W2_of_ne m ρ c main_arg6 (by decide)).trans (b1_arg6 m ρ c)
theorem b2_arg7 (c : Dev nD) : W2 m ρ c (Proc.devRef .tc main_arg7) = (m ((c : Thread nD τ).loc main_arg7)) :=
  (W2_of_ne m ρ c main_arg7 (by decide)).trans (b1_arg7 m ρ c)
theorem b2_arg8 (c : Dev nD) : W2 m ρ c (Proc.devRef .tc main_arg8) = (m ((c : Thread nD τ).loc main_arg8)) :=
  (W2_of_ne m ρ c main_arg8 (by decide)).trans (b1_arg8 m ρ c)
theorem b2_arg9 (c : Dev nD) : W2 m ρ c (Proc.devRef .tc main_arg9) = (m ((c : Thread nD τ).loc main_arg9)) :=
  (W2_of_ne m ρ c main_arg9 (by decide)).trans (b1_arg9 m ρ c)
theorem b2_arg10 (c : Dev nD) : W2 m ρ c (Proc.devRef .tc main_arg10) = (m ((c : Thread nD τ).loc main_arg10)) :=
  (W2_of_ne m ρ c main_arg10 (by decide)).trans (b1_arg10 m ρ c)
theorem b2_arg11 (c : Dev nD) : W2 m ρ c (Proc.devRef .tc main_arg11) = (m ((c : Thread nD τ).loc main_arg11)) :=
  (W2_of_ne m ρ c main_arg11 (by decide)).trans (b1_arg11 m ρ c)
theorem b2_arg12 (c : Dev nD) : W2 m ρ c (Proc.devRef .tc main_arg12) = (m ((c : Thread nD τ).loc main_arg12)) :=
  (W2_of_ne m ρ c main_arg12 (by decide)).trans (b1_arg12 m ρ c)
theorem b2_arg13 (c : Dev nD) : W2 m ρ c (Proc.devRef .tc main_arg13) = (m ((c : Thread nD τ).loc main_arg13)) :=
  (W2_of_ne m ρ c main_arg13 (by decide)).trans (b1_arg13 m ρ c)

/-! ## Boundary 3: after host stretch 1 -/

set_option maxHeartbeats 4000000 in
theorem b3_v40 (c : Dev nD) : W3 m ρ c (Proc.devRef .tc main_v40) = agg64 (H1 m c) (m ((c : Thread nD τ).loc main_arg1)) := by
  show StableHlo.after hostOps1 (W2 m ρ c) (Proc.devRef .tc main_v40) = _
  after_results_simp <;> (rw [b2_v28 m ρ c, b2_v3 m ρ c, b2_v1 m ρ c, b2_v12 m ρ c] <;> rfl)
set_option maxHeartbeats 4000000 in
theorem b3_v28 (c : Dev nD) : W3 m ρ c (Proc.devRef .tc main_v28) = H1 m c := by
  show StableHlo.after hostOps1 (W2 m ρ c) (Proc.devRef .tc main_v28) = _
  after_results_simp <;> exact b2_v28 m ρ c
set_option maxHeartbeats 4000000 in
theorem b3_v41 (c : Dev nD) : W3 m ρ c (Proc.devRef .tc main_v41) = transpose S64x128 [1, 0] (m ((c : Thread nD τ).loc main_arg5)) transposes_S128x64_S64x128_1_0 := by
  show StableHlo.after hostOps1 (W2 m ρ c) (Proc.devRef .tc main_v41) = _
  after_results_simp <;> (rw [b2_arg5 m ρ c] <;> rfl)
set_option maxHeartbeats 4000000 in
theorem b3_v42 (c : Dev nD) : W3 m ρ c (Proc.devRef .tc main_v42) = transpose S64x128 [1, 0] (m ((c : Thread nD τ).loc main_arg7)) transposes_S128x64_S64x128_1_0 := by
  show StableHlo.after hostOps1 (W2 m ρ c) (Proc.devRef .tc main_v42) = _
  after_results_simp <;> (rw [b2_arg7 m ρ c] <;> rfl)
set_option maxHeartbeats 4000000 in
theorem b3_v43 (c : Dev nD) : W3 m ρ c (Proc.devRef .tc main_v43) = shapeCast S1x128 (m ((c : Thread nD τ).loc main_arg6)) shapeCasts_S128_S1x128 := by
  show StableHlo.after hostOps1 (W2 m ρ c) (Proc.devRef .tc main_v43) = _
  after_results_simp <;> (rw [b2_arg6 m ρ c] <;> rfl)
set_option maxHeartbeats 4000000 in
theorem b3_v1 (c : Dev nD) : W3 m ρ c (Proc.devRef .tc main_v1) = srcV (m ((c : Thread nD τ).loc main_arg1)) := by
  show StableHlo.after hostOps1 (W2 m ρ c) (Proc.devRef .tc main_v1) = _
  after_results_simp <;> exact b2_v1 m ρ c
set_option maxHeartbeats 4000000 in
theorem b3_v3 (c : Dev nD) : W3 m ρ c (Proc.devRef .tc main_v3) = dstV (m ((c : Thread nD τ).loc main_arg1)) := by
  show StableHlo.after hostOps1 (W2 m ρ c) (Proc.devRef .tc main_v3) = _
  after_results_simp <;> exact b2_v3 m ρ c
set_option maxHeartbeats 4000000 in
theorem b3_v12 (c : Dev nD) : W3 m ρ c (Proc.devRef .tc main_v12) = invc (m ((c : Thread nD τ).loc main_arg1)) := by
  show StableHlo.after hostOps1 (W2 m ρ c) (Proc.devRef .tc main_v12) = _
  after_results_simp <;> exact b2_v12 m ρ c
set_option maxHeartbeats 4000000 in
theorem b3_arg8 (c : Dev nD) : W3 m ρ c (Proc.devRef .tc main_arg8) = (m ((c : Thread nD τ).loc main_arg8)) := by
  show StableHlo.after hostOps1 (W2 m ρ c) (Proc.devRef .tc main_arg8) = _
  after_results_simp <;> exact b2_arg8 m ρ c
set_option maxHeartbeats 4000000 in
theorem b3_arg9 (c : Dev nD) : W3 m ρ c (Proc.devRef .tc main_arg9) = (m ((c : Thread nD τ).loc main_arg9)) := by
  show StableHlo.after hostOps1 (W2 m ρ c) (Proc.devRef .tc main_arg9) = _
  after_results_simp <;> exact b2_arg9 m ρ c
set_option maxHeartbeats 4000000 in
theorem b3_arg10 (c : Dev nD) : W3 m ρ c (Proc.devRef .tc main_arg10) = (m ((c : Thread nD τ).loc main_arg10)) := by
  show StableHlo.after hostOps1 (W2 m ρ c) (Proc.devRef .tc main_arg10) = _
  after_results_simp <;> exact b2_arg10 m ρ c
set_option maxHeartbeats 4000000 in
theorem b3_arg11 (c : Dev nD) : W3 m ρ c (Proc.devRef .tc main_arg11) = (m ((c : Thread nD τ).loc main_arg11)) := by
  show StableHlo.after hostOps1 (W2 m ρ c) (Proc.devRef .tc main_arg11) = _
  after_results_simp <;> exact b2_arg11 m ρ c
set_option maxHeartbeats 4000000 in
theorem b3_arg12 (c : Dev nD) : W3 m ρ c (Proc.devRef .tc main_arg12) = (m ((c : Thread nD τ).loc main_arg12)) := by
  show StableHlo.after hostOps1 (W2 m ρ c) (Proc.devRef .tc main_arg12) = _
  after_results_simp <;> exact b2_arg12 m ρ c
set_option maxHeartbeats 4000000 in
theorem b3_arg13 (c : Dev nD) : W3 m ρ c (Proc.devRef .tc main_arg13) = (m ((c : Thread nD τ).loc main_arg13)) := by
  show StableHlo.after hostOps1 (W2 m ρ c) (Proc.devRef .tc main_arg13) = _
  after_results_simp <;> exact b2_arg13 m ρ c

/-! ## Boundary 4: after launch 1 -/

theorem b4_v44 (c : Dev nD) : W4 m ρ c (Proc.devRef .tc main_v44) = H2 m c :=
  (W4_arr m ρ c 5).trans ((Cert.KernelIdeal.Step1.arr_out (V3 m ρ) c).trans (by
    show Sage.dense true (N := 50000) (K := 64) (D := 128) (W3 m ρ c (Proc.devRef .tc main_v40)) (W3 m ρ c (Proc.devRef .tc main_v28)) (W3 m ρ c (Proc.devRef .tc main_v41)) (W3 m ρ c (Proc.devRef .tc main_v42)) (W3 m ρ c (Proc.devRef .tc main_v43)) = _
    rw [b3_v40 m ρ c, b3_v28 m ρ c, b3_v41 m ρ c, b3_v42 m ρ c, b3_v43 m ρ c] <;> rfl))
theorem b4_v1 (c : Dev nD) : W4 m ρ c (Proc.devRef .tc main_v1) = srcV (m ((c : Thread nD τ).loc main_arg1)) :=
  (W4_of_ne m ρ c main_v1 (by decide)).trans (b3_v1 m ρ c)
theorem b4_v3 (c : Dev nD) : W4 m ρ c (Proc.devRef .tc main_v3) = dstV (m ((c : Thread nD τ).loc main_arg1)) :=
  (W4_of_ne m ρ c main_v3 (by decide)).trans (b3_v3 m ρ c)
theorem b4_v12 (c : Dev nD) : W4 m ρ c (Proc.devRef .tc main_v12) = invc (m ((c : Thread nD τ).loc main_arg1)) :=
  (W4_of_ne m ρ c main_v12 (by decide)).trans (b3_v12 m ρ c)
theorem b4_arg8 (c : Dev nD) : W4 m ρ c (Proc.devRef .tc main_arg8) = (m ((c : Thread nD τ).loc main_arg8)) :=
  (W4_of_ne m ρ c main_arg8 (by decide)).trans (b3_arg8 m ρ c)
theorem b4_arg9 (c : Dev nD) : W4 m ρ c (Proc.devRef .tc main_arg9) = (m ((c : Thread nD τ).loc main_arg9)) :=
  (W4_of_ne m ρ c main_arg9 (by decide)).trans (b3_arg9 m ρ c)
theorem b4_arg10 (c : Dev nD) : W4 m ρ c (Proc.devRef .tc main_arg10) = (m ((c : Thread nD τ).loc main_arg10)) :=
  (W4_of_ne m ρ c main_arg10 (by decide)).trans (b3_arg10 m ρ c)
theorem b4_arg11 (c : Dev nD) : W4 m ρ c (Proc.devRef .tc main_arg11) = (m ((c : Thread nD τ).loc main_arg11)) :=
  (W4_of_ne m ρ c main_arg11 (by decide)).trans (b3_arg11 m ρ c)
theorem b4_arg12 (c : Dev nD) : W4 m ρ c (Proc.devRef .tc main_arg12) = (m ((c : Thread nD τ).loc main_arg12)) :=
  (W4_of_ne m ρ c main_arg12 (by decide)).trans (b3_arg12 m ρ c)
theorem b4_arg13 (c : Dev nD) : W4 m ρ c (Proc.devRef .tc main_arg13) = (m ((c : Thread nD τ).loc main_arg13)) :=
  (W4_of_ne m ρ c main_arg13 (by decide)).trans (b3_arg13 m ρ c)

/-! ## Boundary 5: after host stretch 2 -/

set_option maxHeartbeats 4000000 in
theorem b5_v56 (c : Dev nD) : W5 m ρ c (Proc.devRef .tc main_v56) = agg128 (H2 m c) (m ((c : Thread nD τ).loc main_arg1)) := by
  show StableHlo.after hostOps2 (W4 m ρ c) (Proc.devRef .tc main_v56) = _
  after_results_simp <;> (rw [b4_v44 m ρ c, b4_v3 m ρ c, b4_v1 m ρ c, b4_v12 m ρ c] <;> rfl)
set_option maxHeartbeats 4000000 in
theorem b5_v44 (c : Dev nD) : W5 m ρ c (Proc.devRef .tc main_v44) = H2 m c := by
  show StableHlo.after hostOps2 (W4 m ρ c) (Proc.devRef .tc main_v44) = _
  after_results_simp <;> exact b4_v44 m ρ c
set_option maxHeartbeats 4000000 in
theorem b5_v57 (c : Dev nD) : W5 m ρ c (Proc.devRef .tc main_v57) = transpose S128x128 [1, 0] (m ((c : Thread nD τ).loc main_arg8)) transposes_S128x128_S128x128_1_0 := by
  show StableHlo.after hostOps2 (W4 m ρ c) (Proc.devRef .tc main_v57) = _
  after_results_simp <;> (rw [b4_arg8 m ρ c] <;> rfl)
set_option maxHeartbeats 4000000 in
theorem b5_v58 (c : Dev nD) : W5 m ρ c (Proc.devRef .tc main_v58) = transpose S128x128 [1, 0] (m ((c : Thread nD τ).loc main_arg10)) transposes_S128x128_S128x128_1_0 := by
  show StableHlo.after hostOps2 (W4 m ρ c) (Proc.devRef .tc main_v58) = _
  after_results_simp <;> (rw [b4_arg10 m ρ c] <;> rfl)
set_option maxHeartbeats 4000000 in
theorem b5_v59 (c : Dev nD) : W5 m ρ c (Proc.devRef .tc main_v59) = shapeCast S1x128 (m ((c : Thread nD τ).loc main_arg9)) shapeCasts_S128_S1x128 := by
  show StableHlo.after hostOps2 (W4 m ρ c) (Proc.devRef .tc main_v59) = _
  after_results_simp <;> (rw [b4_arg9 m ρ c] <;> rfl)
set_option maxHeartbeats 4000000 in
theorem b5_v1 (c : Dev nD) : W5 m ρ c (Proc.devRef .tc main_v1) = srcV (m ((c : Thread nD τ).loc main_arg1)) := by
  show StableHlo.after hostOps2 (W4 m ρ c) (Proc.devRef .tc main_v1) = _
  after_results_simp <;> exact b4_v1 m ρ c
set_option maxHeartbeats 4000000 in
theorem b5_v3 (c : Dev nD) : W5 m ρ c (Proc.devRef .tc main_v3) = dstV (m ((c : Thread nD τ).loc main_arg1)) := by
  show StableHlo.after hostOps2 (W4 m ρ c) (Proc.devRef .tc main_v3) = _
  after_results_simp <;> exact b4_v3 m ρ c
set_option maxHeartbeats 4000000 in
theorem b5_v12 (c : Dev nD) : W5 m ρ c (Proc.devRef .tc main_v12) = invc (m ((c : Thread nD τ).loc main_arg1)) := by
  show StableHlo.after hostOps2 (W4 m ρ c) (Proc.devRef .tc main_v12) = _
  after_results_simp <;> exact b4_v12 m ρ c
set_option maxHeartbeats 4000000 in
theorem b5_arg11 (c : Dev nD) : W5 m ρ c (Proc.devRef .tc main_arg11) = (m ((c : Thread nD τ).loc main_arg11)) := by
  show StableHlo.after hostOps2 (W4 m ρ c) (Proc.devRef .tc main_arg11) = _
  after_results_simp <;> exact b4_arg11 m ρ c
set_option maxHeartbeats 4000000 in
theorem b5_arg12 (c : Dev nD) : W5 m ρ c (Proc.devRef .tc main_arg12) = (m ((c : Thread nD τ).loc main_arg12)) := by
  show StableHlo.after hostOps2 (W4 m ρ c) (Proc.devRef .tc main_arg12) = _
  after_results_simp <;> exact b4_arg12 m ρ c
set_option maxHeartbeats 4000000 in
theorem b5_arg13 (c : Dev nD) : W5 m ρ c (Proc.devRef .tc main_arg13) = (m ((c : Thread nD τ).loc main_arg13)) := by
  show StableHlo.after hostOps2 (W4 m ρ c) (Proc.devRef .tc main_arg13) = _
  after_results_simp <;> exact b4_arg13 m ρ c

/-! ## Boundary 6: after launch 2 -/

theorem b6_v60 (c : Dev nD) : W6 m ρ c (Proc.devRef .tc main_v60) = H3 m c :=
  (W6_arr m ρ c 5).trans ((Cert.KernelIdeal.Step2.arr_out (V5 m ρ) c).trans (by
    show Sage.dense true (N := 50000) (K := 128) (D := 128) (W5 m ρ c (Proc.devRef .tc main_v56)) (W5 m ρ c (Proc.devRef .tc main_v44)) (W5 m ρ c (Proc.devRef .tc main_v57)) (W5 m ρ c (Proc.devRef .tc main_v58)) (W5 m ρ c (Proc.devRef .tc main_v59)) = _
    rw [b5_v56 m ρ c, b5_v44 m ρ c, b5_v57 m ρ c, b5_v58 m ρ c, b5_v59 m ρ c] <;> rfl))
theorem b6_v1 (c : Dev nD) : W6 m ρ c (Proc.devRef .tc main_v1) = srcV (m ((c : Thread nD τ).loc main_arg1)) :=
  (W6_of_ne m ρ c main_v1 (by decide)).trans (b5_v1 m ρ c)
theorem b6_v3 (c : Dev nD) : W6 m ρ c (Proc.devRef .tc main_v3) = dstV (m ((c : Thread nD τ).loc main_arg1)) :=
  (W6_of_ne m ρ c main_v3 (by decide)).trans (b5_v3 m ρ c)
theorem b6_v12 (c : Dev nD) : W6 m ρ c (Proc.devRef .tc main_v12) = invc (m ((c : Thread nD τ).loc main_arg1)) :=
  (W6_of_ne m ρ c main_v12 (by decide)).trans (b5_v12 m ρ c)
theorem b6_arg11 (c : Dev nD) : W6 m ρ c (Proc.devRef .tc main_arg11) = (m ((c : Thread nD τ).loc main_arg11)) :=
  (W6_of_ne m ρ c main_arg11 (by decide)).trans (b5_arg11 m ρ c)
theorem b6_arg12 (c : Dev nD) : W6 m ρ c (Proc.devRef .tc main_arg12) = (m ((c : Thread nD τ).loc main_arg12)) :=
  (W6_of_ne m ρ c main_arg12 (by decide)).trans (b5_arg12 m ρ c)
theorem b6_arg13 (c : Dev nD) : W6 m ρ c (Proc.devRef .tc main_arg13) = (m ((c : Thread nD τ).loc main_arg13)) :=
  (W6_of_ne m ρ c main_arg13 (by decide)).trans (b5_arg13 m ρ c)

/-! ## Boundary 7: after host stretch 3 -/

set_option maxHeartbeats 4000000 in
theorem b7_v72 (c : Dev nD) : W7 m ρ c (Proc.devRef .tc main_v72) = agg128 (H3 m c) (m ((c : Thread nD τ).loc main_arg1)) := by
  show StableHlo.after hostOps3 (W6 m ρ c) (Proc.devRef .tc main_v72) = _
  after_results_simp <;> (rw [b6_v60 m ρ c, b6_v3 m ρ c, b6_v1 m ρ c, b6_v12 m ρ c] <;> rfl)
set_option maxHeartbeats 4000000 in
theorem b7_v60 (c : Dev nD) : W7 m ρ c (Proc.devRef .tc main_v60) = H3 m c := by
  show StableHlo.after hostOps3 (W6 m ρ c) (Proc.devRef .tc main_v60) = _
  after_results_simp <;> exact b6_v60 m ρ c
set_option maxHeartbeats 4000000 in
theorem b7_v73 (c : Dev nD) : W7 m ρ c (Proc.devRef .tc main_v73) = transpose S128x64 [1, 0] (m ((c : Thread nD τ).loc main_arg11)) transposes_S64x128_S128x64_1_0 := by
  show StableHlo.after hostOps3 (W6 m ρ c) (Proc.devRef .tc main_v73) = _
  after_results_simp <;> (rw [b6_arg11 m ρ c] <;> rfl)
set_option maxHeartbeats 4000000 in
theorem b7_v74 (c : Dev nD) : W7 m ρ c (Proc.devRef .tc main_v74) = transpose S128x64 [1, 0] (m ((c : Thread nD τ).loc main_arg13)) transposes_S64x128_S128x64_1_0 := by
  show StableHlo.after hostOps3 (W6 m ρ c) (Proc.devRef .tc main_v74) = _
  after_results_simp <;> (rw [b6_arg13 m ρ c] <;> rfl)
set_option maxHeartbeats 4000000 in
theorem b7_v75 (c : Dev nD) : W7 m ρ c (Proc.devRef .tc main_v75) = shapeCast S1x64 (m ((c : Thread nD τ).loc main_arg12)) shapeCasts_S64_S1x64 := by
  show StableHlo.after hostOps3 (W6 m ρ c) (Proc.devRef .tc main_v75) = _
  after_results_simp <;> (rw [b6_arg12 m ρ c] <;> rfl)

/-! ## Boundary 8: after launch 3 -/

theorem b8_v76 (c : Dev nD) : W8 m ρ c (Proc.devRef .tc main_v76) = H4 m c :=
  (W8_arr m ρ c 5).trans ((Cert.KernelIdeal.Step3.arr_out (V7 m ρ) c).trans (by
    show Sage.dense false (N := 50000) (K := 128) (D := 64) (W7 m ρ c (Proc.devRef .tc main_v72)) (W7 m ρ c (Proc.devRef .tc main_v60)) (W7 m ρ c (Proc.devRef .tc main_v73)) (W7 m ρ c (Proc.devRef .tc main_v74)) (W7 m ρ c (Proc.devRef .tc main_v75)) = _
    rw [b7_v72 m ρ c, b7_v60 m ρ c, b7_v73 m ρ c, b7_v74 m ρ c, b7_v75 m ρ c] <;> rfl))

end Cert.KernelIdeal.Hand

end
-- ==== Proof.LibHostRows.lean ====
/-
  Host-side row operations read at one entry, at the exact values.

  * A `dot_general` of an `M × K` by a `K × N` matrix along the one shared axis: entry `(p, j)` is
    `∑ k, l[p,k] · r[k,j]` — at the exact values the host's product has no accumulator, no rounding and no order.
  * A vector of length `C` viewed as one row and that row spread over `R` rows: entry `(p, k)` is the vector's `k`.
  * A vector of length `C` re-laid as a `1 × C` block: entry `(0, k)` is the vector's `k`.
-/
import Idealize.ShloMosaic.PureOps.Ideal.Laws
import Idealize.ShloMosaic.Lib.ValueIdx
import Idealize.ShloMosaic.Lib.Pipeline.Value

noncomputable section

open scoped BigOperators

namespace Cert.LibHostRows

open Idealize.ShloMosaic Idealize.ShloMosaic.ValueIdx

/-- `(l · r)[p, j] = ∑ k, l[p,k] · r[k,j]` for the host's product whose left operand index at output `i` and
    contraction position `q` is `(i 0, q)` and whose right operand index is `(q, i 1)`. -/
theorem hostDot_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    Host.dotGeneral (F := Ideal) D prec l r (ix2 p j) = ∑ k : Fin K, l (ix2 p k) * r (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A vector viewed as one row, the row spread over `R` rows: entry `(p, k)` is the vector's entry `k`. -/
theorem rowOfVec_spread_apply {α : Type} {R C : ℕ} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  rw [broadcastInDim_apply ![0, 1] h2 _ (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])]
  exact broadcastInDim_apply ![1] h1 b (ix2 (0 : Fin 1) k) (ix1 k) (fun a => match a with
    | ⟨0, _⟩ => by show k.val = if C = 1 then 0 else k.val; rw [if_neg hC])

/-- A vector re-laid as a one-row block: entry `(0, k)` is the vector's entry `k` (the same row-major position). -/
theorem rowOfVec_cast_apply {α : Type} {C : ℕ} (b : (⟨1, ![C]⟩ : Shape).Idx → α)
    (h : (⟨1, ![C]⟩ : Shape).ShapeCasts ⟨2, ![1, C]⟩) (k : Fin C) :
    shapeCast ⟨2, ![1, C]⟩ b h (ix2 (0 : Fin 1) k) = b (ix1 k) :=
  shapeCast_apply b h (ix2 (0 : Fin 1) k) (ix1 k) (by
    rw [Shape.rowMajor_val_one, Shape.rowMajor_val_two]
    show k.val = 0 * C + k.val
    omega)

end Cert.LibHostRows

end
-- ==== Proof.Layer.lean ====
/-
  The law that joins the two spellings of one graph layer.

  One program normalises the neighbour sums by multiplying with the reciprocal of the neighbour count,
  `S[p,k] · (1 / c[p])`, adds the two products and then the bias; the other divides, `S[p,k] / c[p]`, and adds the
  bias between the two products.  On the extended reals a quotient by a divisor that is not zero is the product with
  the divisor's inverse, and `1 / c` is that inverse, so the two normalisations agree entry by entry — whatever
  `S[p,k]` is, infinite or not —; the rest is commutativity and associativity of the sum.  The divisor is a neighbour
  count clamped below by one, so it is not zero.
-/
import proofs.«138681_j26860725469213_1_alg».proof.Proof.Spec
import proofs.«138681_j26860725469213_1_alg».proof.Proof.LibHostRows
import Idealize.ShloMosaic.Lib.IdealHost

noncomputable section

open scoped BigOperators

namespace Cert.Sage

open Idealize.ShloMosaic Idealize.ShloMosaic.ValueIdx

/-- A quotient by a divisor that is not zero is the product with the reciprocal `1 / c`. -/
theorem div_eq_mul_recip (s c : EReal) (hc : c ≠ 0) : Ideal.div s c = s * Ideal.div 1 c := by
  unfold Ideal.div
  rw [if_neg hc, if_neg hc, one_mul]

/-- A value clamped below by one is not zero. -/
theorem max_one_ne_zero (x : EReal) : max x 1 ≠ 0 :=
  ne_of_gt (lt_of_lt_of_le zero_lt_one (le_max_right x 1))

/-- The layer written with the reciprocal (the dense step over `S · I`) is the layer written with the quotient
    (the host's products of `S / C` and of `h`, the bias added between them), at entry `(p, j)`: `I` holds
    `1 / c[p]` along row `p`, `C` holds `c[p]`, both bias arrays hold `b[j]` in column `j`. -/
theorem denseAt_eq_host (relu : Bool) {N K D : ℕ}
    (DL : DotDims ⟨2, ![N, K]⟩ ⟨2, ![K, D]⟩ ⟨2, ![N, D]⟩)
    (hr : DL.contr.rank = 1) (hs : DL.contr.size ⟨0, by omega⟩ = K)
    (hl0 : ∀ (i : (⟨2, ![N, D]⟩ : Shape).Idx) (q : DL.contr.Idx), (DL.lhsIdx i q 0).val = (i 0).val)
    (hl1 : ∀ (i : (⟨2, ![N, D]⟩ : Shape).Idx) (q : DL.contr.Idx), (DL.lhsIdx i q 1).val = (q ⟨0, by omega⟩).val)
    (hr0 : ∀ (i : (⟨2, ![N, D]⟩ : Shape).Idx) (q : DL.contr.Idx), (DL.rhsIdx i q 0).val = (q ⟨0, by omega⟩).val)
    (hr1 : ∀ (i : (⟨2, ![N, D]⟩ : Shape).Idx) (q : DL.contr.Idx), (DL.rhsIdx i q 1).val = (i 1).val)
    (S I h C : FVec Ideal ⟨2, ![N, K]⟩ .f32) (Wl Wr : FVec Ideal ⟨2, ![K, D]⟩ .f32)
    (bK : FVec Ideal ⟨2, ![1, D]⟩ .f32) (Bb : FVec Ideal ⟨2, ![N, D]⟩ .f32)
    (c : Fin N → EReal) (one : EReal) (b : Fin D → EReal) (hone : one = 1)
    (hc : ∀ p, c p ≠ 0)
    (hI : ∀ p k, I (ix2 p k) = Ideal.div one (c p))
    (hC : ∀ p k, C (ix2 p k) = c p)
    (hbK : ∀ j, bK (ix2 (0 : Fin 1) j) = b j) (hBb : ∀ p j, Bb (ix2 p j) = b j)
    (p : Fin N) (j : Fin D) :
    denseAt relu (mulf S I) h Wl Wr bK p j
      = act relu (addf (addf (Host.dotGeneral (F := Ideal) DL none (Host.divf (F := Ideal) S C) Wl) Bb)
          (Host.dotGeneral (F := Ideal) DL none h Wr) (ix2 p j)) := by
  unfold denseAt
  refine congrArg (act relu) ?_
  rw [addf_apply, addf_apply, Cert.LibHostRows.hostDot_apply DL hr hs hl0 hl1 hr0 hr1,
    Cert.LibHostRows.hostDot_apply DL hr hs hl0 hl1 hr0 hr1, hbK, hBb]
  have e : ∀ k : Fin K, mulf S I (ix2 p k) * Wl (ix2 k j) = Host.divf (F := Ideal) S C (ix2 p k) * Wl (ix2 k j) := fun k => by
    rw [mulf_apply, hostDivf_apply, hI, hC, hone, div_eq_mul_recip (S (ix2 p k)) _ (hc p)]
  rw [Finset.sum_congr rfl fun k _ => e k]
  exact add_right_comm _ _ _

end Cert.Sage

end
-- ==== Proof.LibColumnSpread.lean ====
/-
  A per-row quantity spread along the rows of a matrix.

  A vector of `R` entries viewed as an `R × 1` column, and a column spread over `C` columns: at row `p` every column
  holds the vector's entry `p`.  (The companion of the row forms: a vector viewed as one row, a row spread over the
  rows.)
-/
import Idealize.ShloMosaic.Lib.Pipeline.Value
import Idealize.ShloMosaic.Lib.ValueIdx

noncomputable section

namespace Cert.LibColumnSpread

open Idealize.ShloMosaic Idealize.ShloMosaic.ValueIdx

/-- A vector viewed as a column: entry `(p, u)` is the vector's entry `p`. -/
theorem colOfVec_apply {α : Type} {R : ℕ} (hR : R ≠ 1) (v : (⟨1, ![R]⟩ : Shape).Idx → α)
    (h : (⟨1, ![R]⟩ : Shape).BroadcastsInDim ⟨2, ![R, 1]⟩ ![0]) (p : Fin R) (u : Fin 1) :
    broadcastInDim ⟨2, ![R, 1]⟩ ![0] h v (ix2 p u) = v (ix1 p) :=
  broadcastInDim_apply ![0] h v (ix2 p u) (ix1 p) (fun a => match a with
    | ⟨0, _⟩ => by show p.val = if R = 1 then 0 else p.val; rw [if_neg hR])

/-- A column spread over `C` columns: entry `(p, k)` is the column's entry of row `p`. -/
theorem col_spread_apply {α : Type} {R C : ℕ} (hR : R ≠ 1) (v : (⟨2, ![R, 1]⟩ : Shape).Idx → α)
    (h : (⟨2, ![R, 1]⟩ : Shape).BroadcastsInDim ⟨2, ![R, C]⟩ ![0, 1]) (p : Fin R) (k : Fin C) :
    broadcastInDim ⟨2, ![R, C]⟩ ![0, 1] h v (ix2 p k) = v (ix2 p (0 : Fin 1)) :=
  broadcastInDim_apply ![0, 1] h v (ix2 p k) (ix2 p (0 : Fin 1)) (fun a => match a with
    | ⟨0, _⟩ => by show p.val = if R = 1 then 0 else p.val; rw [if_neg hR]
    | ⟨1, _⟩ => by show 0 = if (1 : Nat) = 1 then 0 else _; rw [if_pos rfl])

/-- A vector viewed as a column and the column spread over `C` columns: entry `(p, k)` is the vector's entry `p`. -/
theorem colOfVec_spread_apply {α : Type} {R C : ℕ} (hR : R ≠ 1) (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (k : Fin C) :
    broadcastInDim ⟨2, ![R, C]⟩ ![0, 1] h2 (broadcastInDim ⟨2, ![R, 1]⟩ ![0] h1 v) (ix2 p k) = v (ix1 p) :=
  (col_spread_apply hR _ h2 p k).trans (colOfVec_apply hR v h1 p 0)

end Cert.LibColumnSpread

end
-- ==== Proof.LibColumnCast.lean ====
/-
  A vector laid out as a one-column matrix.

  An array of `a` entries re-read with shape `[a, 1]` keeps its row-major order, so the entry at row `i` of its one
  column is the vector's entry `i`.
-/
import Idealize.ShloMosaic.Lib.Pipeline.Value
import Idealize.ShloMosaic.Lib.ValueIdx

noncomputable section

namespace Cert.LibColumnCast

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast

end
-- ==== Proof.KernelReads.lean ====
/-
  The reciprocal column of the kernel program, read at one entry.

  The column holds `1 / max(cnt[p], 1)` at row `p`; spread over the feature columns it holds the same value at every
  `(p, k)`.  The clamped count is at least one, so it is not zero.
-/
import proofs.«138681_j26860725469213_1_alg».proof.Proof.KernelTerm
import proofs.«138681_j26860725469213_1_alg».proof.Proof.Layer
import proofs.«138681_j26860725469213_1_alg».proof.Proof.LibColumnSpread
import proofs.«138681_j26860725469213_1_alg».proof.Proof.LibColumnCast
import Idealize.ShloMosaic.Lib.IdealHost

noncomputable section

namespace Cert.KernelIdeal.Hand

open Idealize.ShloMosaic Idealize.ShloMosaic.TcCoe Idealize.ShloMosaic.ValueIdx
open Cert.KernelIdeal Cert.KernelIdeal.Gen

/-- The array of ones reads one (the word's value) everywhere. -/
theorem ones_apply (p : Fin 50000) :
    (broadcastInDim S50000 ![] bcast_S_S50000 (constant (F := Ideal) S_ .f32 0x3F800000#32) : FVec Ideal S50000 .f32) (ix1 p)
      = Ideal.ofBits .f32 0x3F800000#32 :=
  broadcastInDim_scalar_apply bcast_S_S50000 _ _

/-- The clamped count at node `p` is the count or one, whichever is larger. -/
theorem cntMax_apply (x1 : Edges) (p : Fin 50000) : cntMax x1 (ix1 p) = max (cnt x1 (ix1 p)) 1 := by
  unfold cntMax
  rw [maximumf_apply, ones_apply, Ideal.ofBits_one_f32]

theorem cntMax_ne_zero (x1 : Edges) (p : Fin 50000) : cntMax x1 (ix1 p) ≠ 0 := by
  rw [cntMax_apply]; exact Sage.max_one_ne_zero _

/-- The reciprocal column at row `p`. -/
theorem invc_apply (x1 : Edges) (p : Fin 50000) :
    invc x1 (ix2 p (0 : Fin 1)) = Ideal.div (Ideal.ofBits .f32 0x3F800000#32) (cntMax x1 (ix1 p)) := by
  unfold invc
  rw [Cert.LibColumnCast.shapeCast_a_a1_apply, hostDivf_apply, ones_apply]

theorem inv128_apply (x1 : Edges) (p : Fin 50000) (k : Fin 128) :
    inv128 x1 (ix2 p k) = Ideal.div (Ideal.ofBits .f32 0x3F800000#32) (cntMax x1 (ix1 p)) := by
  unfold inv128
  rw [Cert.LibColumnSpread.col_spread_apply (by decide), invc_apply]

theorem inv64_apply (x1 : Edges) (p : Fin 50000) (k : Fin 64) :
    inv64 x1 (ix2 p k) = Ideal.div (Ideal.ofBits .f32 0x3F800000#32) (cntMax x1 (ix1 p)) := by
  unfold inv64
  rw [Cert.LibColumnSpread.col_spread_apply (by decide), invc_apply]

end Cert.KernelIdeal.Hand

end
-- ==== Proof.RefBridge.lean ====
/-
  Layer by layer, the kernel program's features are the reference's.

  Both programs gather the rows `g[src e]`, scatter-add them at `dst e` and count the edges into each node with the same
  host operations on the same index arrays; those sums are taken as they are.  What differs is the normalisation (a
  product with the reciprocal of the clamped count against a quotient by it) and the place of the bias in the sum;
  the layer law settles both at every entry.  The four layers are chained: equal features in, equal features out.
-/
import proofs.«138681_j26860725469213_1_alg».proof.Proof.Gen.ReferenceIdeal.Read
import proofs.«138681_j26860725469213_1_alg».proof.Proof.KernelReads
import proofs.«138681_j26860725469213_1_alg».proof.Proof.LibHostRows

set_option maxRecDepth 16384

noncomputable section

namespace Cert.Bridge

open Idealize.ShloMosaic Idealize.ShloMosaic.TcCoe Idealize.ShloMosaic.ValueIdx
open Cert.KernelIdeal.Hand Cert.ReferenceIdeal.Read
open Cert.KernelIdeal Cert.KernelIdeal.Gen

/-- The clamp at zero, and its absence. -/
theorem act_true (x : EReal) : Sage.act true x = max x (Ideal.ofBits .f32 0x00000000#32) := rfl
theorem act_false (x : EReal) : Sage.act false x = x := rfl

/-! ## Layer 1 -/

/-- The reference's sum of the in-neighbours' rows is the kernel program's: the same two host operations on the same
    index arrays. -/
theorem sum_eq1 (g : FVec Ideal S50000x128 .f32) (x1 : Edges) :
    Host.scatterAdd Cert.ReferenceIdeal.scatter_S50000x128_S800000x1_S800000x128_1_0_0_1 (val_main_v11 (F := Ideal)) (val_main_v12 (F := Ideal) x1)
            (Host.gather Cert.ReferenceIdeal.gather_S50000x128_S800000x1_S800000x128_1_0_n_n_0_1_1128 g (val_main_v9 (F := Ideal) x1)) = sum128 g x1 := rfl

/-- The kernel program's layer at entry `(p, j)`, with the reference's names for the transposed weights. -/
theorem feat_apply1 (g : FVec Ideal S50000x128 .f32) (x1 : Edges) (wl : FVec Ideal S64x128 .f32) (b : FVec Ideal S64 .f32) (wr : FVec Ideal S64x128 .f32) (p : Fin 50000) (j : Fin 64) :
    h1 g x1 wl b wr (ix2 p j)
      = Sage.denseAt true (mulf (sum128 g x1) (inv128 x1)) g (val_main_v23 (F := Ideal) wl : FVec Ideal Cert.ReferenceIdeal.S128x64 .f32) (val_main_v28 (F := Ideal) wr : FVec Ideal Cert.ReferenceIdeal.S128x64 .f32) (shapeCast S1x64 b shapeCasts_S64_S1x64) p j := rfl

/-- Layer 1: the dense step over the mean of the in-neighbours' rows is the reference's layer of the same
    features `g` — its quotient by the clamped count, its two products with the bias added between them, its clamp at zero. -/
theorem layer1 (g : FVec Ideal S50000x128 .f32) (x1 : Edges) (wl : FVec Ideal S64x128 .f32) (b : FVec Ideal S64 .f32) (wr : FVec Ideal S64x128 .f32) :
    h1 g x1 wl b wr
      = maximumf (addf (addf (Host.dotGeneral (F := Ideal) (φ₁ := .f32) (φ₂ := .f32) Cert.ReferenceIdeal.dot_S50000x128_S128x64_S50000x64_1_0_0_1_n_n none
          (Host.divf (F := Ideal) (Host.scatterAdd Cert.ReferenceIdeal.scatter_S50000x128_S800000x1_S800000x128_1_0_0_1 (val_main_v11 (F := Ideal)) (val_main_v12 (F := Ideal) x1)
            (Host.gather Cert.ReferenceIdeal.gather_S50000x128_S800000x1_S800000x128_1_0_n_n_0_1_1128 g (val_main_v9 (F := Ideal) x1))) (val_main_v21 (F := Ideal) x1)) (val_main_v23 (F := Ideal) wl : FVec Ideal Cert.ReferenceIdeal.S128x64 .f32))
          (val_main_v26 (F := Ideal) b)) (Host.dotGeneral (F := Ideal) (φ₁ := .f32) (φ₂ := .f32) Cert.ReferenceIdeal.dot_S50000x128_S128x64_S50000x64_1_0_0_1_n_n none g (val_main_v28 (F := Ideal) wr : FVec Ideal Cert.ReferenceIdeal.S128x64 .f32))) (val_main_call0_v0 (F := Ideal)) := by
  funext i
  obtain ⟨p, j, rfl⟩ : ∃ (p : Fin 50000) (j : Fin 64), i = ix2 p j := ⟨i 0, i 1, eq_ix2 i⟩
  have hC : ∀ (p : Fin 50000) (k : Fin 128), val_main_v21 (F := Ideal) x1 (ix2 p k) = cntMax x1 (ix1 p) := fun p k => by
    unfold val_main_v21 val_main_v20
    exact Cert.LibColumnSpread.colOfVec_spread_apply (by decide) _ _ _ p k
  have hBb : ∀ (p : Fin 50000) (j : Fin 64), val_main_v26 (F := Ideal) b (ix2 p j) = b (ix1 j) := fun p j => by
    unfold val_main_v26 val_main_v25
    exact Cert.LibHostRows.rowOfVec_spread_apply (by decide) b _ _ p j
  have hbK : ∀ j : Fin 64, (shapeCast S1x64 b shapeCasts_S64_S1x64 : FVec Ideal S1x64 .f32) (ix2 (0 : Fin 1) j) = b (ix1 j) := fun j =>
    Cert.LibHostRows.rowOfVec_cast_apply b _ j
  have key := Sage.denseAt_eq_host true Cert.ReferenceIdeal.dot_S50000x128_S128x64_S50000x64_1_0_0_1_n_n rfl rfl lhs_main_v24_0 lhs_main_v24_1 rhs_main_v24_0 rhs_main_v24_1
    (sum128 g x1) (inv128 x1) g (val_main_v21 (F := Ideal) x1) (val_main_v23 (F := Ideal) wl : FVec Ideal Cert.ReferenceIdeal.S128x64 .f32) (val_main_v28 (F := Ideal) wr : FVec Ideal Cert.ReferenceIdeal.S128x64 .f32)
    (shapeCast S1x64 b shapeCasts_S64_S1x64) (val_main_v26 (F := Ideal) b) (fun p => cntMax x1 (ix1 p)) (Ideal.ofBits .f32 0x3F800000#32) (fun j => b (ix1 j))
    Ideal.ofBits_one_f32 (cntMax_ne_zero x1) (inv128_apply x1) hC hbK hBb p j
  have hZ : val_main_call0_v0 (F := Ideal) (ix2 p j) = Ideal.ofBits .f32 0x00000000#32 :=
    (val_main_call0_v0_apply (F := Ideal) _).trans (val_main_call0_cst_apply (F := Ideal) _)
  rw [maximumf_apply, hZ, sum_eq1]
  exact (feat_apply1 g x1 wl b wr p j).trans (key.trans (act_true _))

/-! ## Layer 2 -/

/-- The reference's sum of the in-neighbours' rows is the kernel program's: the same two host operations on the same
    index arrays. -/
theorem sum_eq2 (g : FVec Ideal S50000x64 .f32) (x1 : Edges) :
    Host.scatterAdd Cert.ReferenceIdeal.scatter_S50000x64_S800000x1_S800000x64_1_0_0_1 (val_main_v39 (F := Ideal)) (val_main_v40 (F := Ideal) x1)
            (Host.gather Cert.ReferenceIdeal.gather_S50000x64_S800000x1_S800000x64_1_0_n_n_0_1_164 g (val_main_v37 (F := Ideal) x1)) = sum64 g x1 := rfl

/-- The kernel program's layer at entry `(p, j)`, with the reference's names for the transposed weights. -/
theorem feat_apply2 (g : FVec Ideal S50000x64 .f32) (x1 : Edges) (wl : FVec Ideal S128x64 .f32) (b : FVec Ideal S128 .f32) (wr : FVec Ideal S128x64 .f32) (p : Fin 50000) (j : Fin 128) :
    h2 g x1 wl b wr (ix2 p j)
      = Sage.denseAt true (mulf (sum64 g x1) (inv64 x1)) g (val_main_v51 (F := Ideal) wl : FVec Ideal Cert.ReferenceIdeal.S64x128 .f32) (val_main_v56 (F := Ideal) wr : FVec Ideal Cert.ReferenceIdeal.S64x128 .f32) (shapeCast S1x128 b shapeCasts_S128_S1x128) p j := rfl

/-- Layer 2: the dense step over the mean of the in-neighbours' rows is the reference's layer of the same
    features `g` — its quotient by the clamped count, its two products with the bias added between them, its clamp at zero. -/
theorem layer2 (g : FVec Ideal S50000x64 .f32) (x1 : Edges) (wl : FVec Ideal S128x64 .f32) (b : FVec Ideal S128 .f32) (wr : FVec Ideal S128x64 .f32) :
    h2 g x1 wl b wr
      = maximumf (addf (addf (Host.dotGeneral (F := Ideal) (φ₁ := .f32) (φ₂ := .f32) Cert.ReferenceIdeal.dot_S50000x64_S64x128_S50000x128_1_0_0_1_n_n none
          (Host.divf (F := Ideal) (Host.scatterAdd Cert.ReferenceIdeal.scatter_S50000x64_S800000x1_S800000x64_1_0_0_1 (val_main_v39 (F := Ideal)) (val_main_v40 (F := Ideal) x1)
            (Host.gather Cert.ReferenceIdeal.gather_S50000x64_S800000x1_S800000x64_1_0_n_n_0_1_164 g (val_main_v37 (F := Ideal) x1))) (val_main_v49 (F := Ideal) x1)) (val_main_v51 (F := Ideal) wl : FVec Ideal Cert.ReferenceIdeal.S64x128 .f32))
          (val_main_v54 (F := Ideal) b)) (Host.dotGeneral (F := Ideal) (φ₁ := .f32) (φ₂ := .f32) Cert.ReferenceIdeal.dot_S50000x64_S64x128_S50000x128_1_0_0_1_n_n none g (val_main_v56 (F := Ideal) wr : FVec Ideal Cert.ReferenceIdeal.S64x128 .f32))) (val_main_call1_v0 (F := Ideal)) := by
  funext i
  obtain ⟨p, j, rfl⟩ : ∃ (p : Fin 50000) (j : Fin 128), i = ix2 p j := ⟨i 0, i 1, eq_ix2 i⟩
  have hC : ∀ (p : Fin 50000) (k : Fin 64), val_main_v49 (F := Ideal) x1 (ix2 p k) = cntMax x1 (ix1 p) := fun p k => by
    unfold val_main_v49 val_main_v48
    exact Cert.LibColumnSpread.colOfVec_spread_apply (by decide) _ _ _ p k
  have hBb : ∀ (p : Fin 50000) (j : Fin 128), val_main_v54 (F := Ideal) b (ix2 p j) = b (ix1 j) := fun p j => by
    unfold val_main_v54 val_main_v53
    exact Cert.LibHostRows.rowOfVec_spread_apply (by decide) b _ _ p j
  have hbK : ∀ j : Fin 128, (shapeCast S1x128 b shapeCasts_S128_S1x128 : FVec Ideal S1x128 .f32) (ix2 (0 : Fin 1) j) = b (ix1 j) := fun j =>
    Cert.LibHostRows.rowOfVec_cast_apply b _ j
  have key := Sage.denseAt_eq_host true Cert.ReferenceIdeal.dot_S50000x64_S64x128_S50000x128_1_0_0_1_n_n rfl rfl lhs_main_v52_0 lhs_main_v52_1 rhs_main_v52_0 rhs_main_v52_1
    (sum64 g x1) (inv64 x1) g (val_main_v49 (F := Ideal) x1) (val_main_v51 (F := Ideal) wl : FVec Ideal Cert.ReferenceIdeal.S64x128 .f32) (val_main_v56 (F := Ideal) wr : FVec Ideal Cert.ReferenceIdeal.S64x128 .f32)
    (shapeCast S1x128 b shapeCasts_S128_S1x128) (val_main_v54 (F := Ideal) b) (fun p => cntMax x1 (ix1 p)) (Ideal.ofBits .f32 0x3F800000#32) (fun j => b (ix1 j))
    Ideal.ofBits_one_f32 (cntMax_ne_zero x1) (inv64_apply x1) hC hbK hBb p j
  have hZ : val_main_call1_v0 (F := Ideal) (ix2 p j) = Ideal.ofBits .f32 0x00000000#32 :=
    (val_main_call1_v0_apply (F := Ideal) _).trans (val_main_call1_cst_apply (F := Ideal) _)
  rw [maximumf_apply, hZ, sum_eq2]
  exact (feat_apply2 g x1 wl b wr p j).trans (key.trans (act_true _))

/-! ## Layer 3 -/

/-- The reference's sum of the in-neighbours' rows is the kernel program's: the same two host operations on the same
    index arrays. -/
theorem sum_eq3 (g : FVec Ideal S50000x128 .f32) (x1 : Edges) :
    Host.scatterAdd Cert.ReferenceIdeal.scatter_S50000x128_S800000x1_S800000x128_1_0_0_1 (val_main_v67 (F := Ideal)) (val_main_v68 (F := Ideal) x1)
            (Host.gather Cert.ReferenceIdeal.gather_S50000x128_S800000x1_S800000x128_1_0_n_n_0_1_1128 g (val_main_v65 (F := Ideal) x1)) = sum128 g x1 := rfl

/-- The kernel program's layer at entry `(p, j)`, with the reference's names for the transposed weights. -/
theorem feat_apply3 (g : FVec Ideal S50000x128 .f32) (x1 : Edges) (wl : FVec Ideal S128x128 .f32) (b : FVec Ideal S128 .f32) (wr : FVec Ideal S128x128 .f32) (p : Fin 50000) (j : Fin 128) :
    h3 g x1 wl b wr (ix2 p j)
      = Sage.denseAt true (mulf (sum128 g x1) (inv128 x1)) g (val_main_v79 (F := Ideal) wl : FVec Ideal Cert.ReferenceIdeal.S128x128 .f32) (val_main_v84 (F := Ideal) wr : FVec Ideal Cert.ReferenceIdeal.S128x128 .f32) (shapeCast S1x128 b shapeCasts_S128_S1x128) p j := rfl

/-- Layer 3: the dense step over the mean of the in-neighbours' rows is the reference's layer of the same
    features `g` — its quotient by the clamped count, its two products with the bias added between them, its clamp at zero. -/
theorem layer3 (g : FVec Ideal S50000x128 .f32) (x1 : Edges) (wl : FVec Ideal S128x128 .f32) (b : FVec Ideal S128 .f32) (wr : FVec Ideal S128x128 .f32) :
    h3 g x1 wl b wr
      = maximumf (addf (addf (Host.dotGeneral (F := Ideal) (φ₁ := .f32) (φ₂ := .f32) Cert.ReferenceIdeal.dot_S50000x128_S128x128_S50000x128_1_0_0_1_n_n none
          (Host.divf (F := Ideal) (Host.scatterAdd Cert.ReferenceIdeal.scatter_S50000x128_S800000x1_S800000x128_1_0_0_1 (val_main_v67 (F := Ideal)) (val_main_v68 (F := Ideal) x1)
            (Host.gather Cert.ReferenceIdeal.gather_S50000x128_S800000x1_S800000x128_1_0_n_n_0_1_1128 g (val_main_v65 (F := Ideal) x1))) (val_main_v77 (F := Ideal) x1)) (val_main_v79 (F := Ideal) wl : FVec Ideal Cert.ReferenceIdeal.S128x128 .f32))
          (val_main_v82 (F := Ideal) b)) (Host.dotGeneral (F := Ideal) (φ₁ := .f32) (φ₂ := .f32) Cert.ReferenceIdeal.dot_S50000x128_S128x128_S50000x128_1_0_0_1_n_n none g (val_main_v84 (F := Ideal) wr : FVec Ideal Cert.ReferenceIdeal.S128x128 .f32))) (val_main_call2_v0 (F := Ideal)) := by
  funext i
  obtain ⟨p, j, rfl⟩ : ∃ (p : Fin 50000) (j : Fin 128), i = ix2 p j := ⟨i 0, i 1, eq_ix2 i⟩
  have hC : ∀ (p : Fin 50000) (k : Fin 128), val_main_v77 (F := Ideal) x1 (ix2 p k) = cntMax x1 (ix1 p) := fun p k => by
    unfold val_main_v77 val_main_v76
    exact Cert.LibColumnSpread.colOfVec_spread_apply (by decide) _ _ _ p k
  have hBb : ∀ (p : Fin 50000) (j : Fin 128), val_main_v82 (F := Ideal) b (ix2 p j) = b (ix1 j) := fun p j => by
    unfold val_main_v82 val_main_v81
    exact Cert.LibHostRows.rowOfVec_spread_apply (by decide) b _ _ p j
  have hbK : ∀ j : Fin 128, (shapeCast S1x128 b shapeCasts_S128_S1x128 : FVec Ideal S1x128 .f32) (ix2 (0 : Fin 1) j) = b (ix1 j) := fun j =>
    Cert.LibHostRows.rowOfVec_cast_apply b _ j
  have key := Sage.denseAt_eq_host true Cert.ReferenceIdeal.dot_S50000x128_S128x128_S50000x128_1_0_0_1_n_n rfl rfl lhs_main_v80_0 lhs_main_v80_1 rhs_main_v80_0 rhs_main_v80_1
    (sum128 g x1) (inv128 x1) g (val_main_v77 (F := Ideal) x1) (val_main_v79 (F := Ideal) wl : FVec Ideal Cert.ReferenceIdeal.S128x128 .f32) (val_main_v84 (F := Ideal) wr : FVec Ideal Cert.ReferenceIdeal.S128x128 .f32)
    (shapeCast S1x128 b shapeCasts_S128_S1x128) (val_main_v82 (F := Ideal) b) (fun p => cntMax x1 (ix1 p)) (Ideal.ofBits .f32 0x3F800000#32) (fun j => b (ix1 j))
    Ideal.ofBits_one_f32 (cntMax_ne_zero x1) (inv128_apply x1) hC hbK hBb p j
  have hZ : val_main_call2_v0 (F := Ideal) (ix2 p j) = Ideal.ofBits .f32 0x00000000#32 :=
    (val_main_call2_v0_apply (F := Ideal) _).trans (val_main_call2_cst_apply (F := Ideal) _)
  rw [maximumf_apply, hZ, sum_eq3]
  exact (feat_apply3 g x1 wl b wr p j).trans (key.trans (act_true _))

/-! ## Layer 4 -/

/-- The reference's sum of the in-neighbours' rows is the kernel program's: the same two host operations on the same
    index arrays. -/
theorem sum_eq4 (g : FVec Ideal S50000x128 .f32) (x1 : Edges) :
    Host.scatterAdd Cert.ReferenceIdeal.scatter_S50000x128_S800000x1_S800000x128_1_0_0_1 (val_main_v95 (F := Ideal)) (val_main_v96 (F := Ideal) x1)
            (Host.gather Cert.ReferenceIdeal.gather_S50000x128_S800000x1_S800000x128_1_0_n_n_0_1_1128 g (val_main_v93 (F := Ideal) x1)) = sum128 g x1 := rfl

/-- The kernel program's layer at entry `(p, j)`, with the reference's names for the transposed weights. -/
theorem feat_apply4 (g : FVec Ideal S50000x128 .f32) (x1 : Edges) (wl : FVec Ideal S64x128 .f32) (b : FVec Ideal S64 .f32) (wr : FVec Ideal S64x128 .f32) (p : Fin 50000) (j : Fin 64) :
    h4 g x1 wl b wr (ix2 p j)
      = Sage.denseAt false (mulf (sum128 g x1) (inv128 x1)) g (val_main_v107 (F := Ideal) wl : FVec Ideal Cert.ReferenceIdeal.S128x64 .f32) (val_main_v112 (F := Ideal) wr : FVec Ideal Cert.ReferenceIdeal.S128x64 .f32) (shapeCast S1x64 b shapeCasts_S64_S1x64) p j := rfl

/-- Layer 4: the dense step over the mean of the in-neighbours' rows is the reference's layer of the same
    features `g` — its quotient by the clamped count, its two products with the bias added between them. -/
theorem layer4 (g : FVec Ideal S50000x128 .f32) (x1 : Edges) (wl : FVec Ideal S64x128 .f32) (b : FVec Ideal S64 .f32) (wr : FVec Ideal S64x128 .f32) :
    h4 g x1 wl b wr
      = addf (addf (Host.dotGeneral (F := Ideal) (φ₁ := .f32) (φ₂ := .f32) Cert.ReferenceIdeal.dot_S50000x128_S128x64_S50000x64_1_0_0_1_n_n none
          (Host.divf (F := Ideal) (Host.scatterAdd Cert.ReferenceIdeal.scatter_S50000x128_S800000x1_S800000x128_1_0_0_1 (val_main_v95 (F := Ideal)) (val_main_v96 (F := Ideal) x1)
            (Host.gather Cert.ReferenceIdeal.gather_S50000x128_S800000x1_S800000x128_1_0_n_n_0_1_1128 g (val_main_v93 (F := Ideal) x1))) (val_main_v105 (F := Ideal) x1)) (val_main_v107 (F := Ideal) wl : FVec Ideal Cert.ReferenceIdeal.S128x64 .f32))
          (val_main_v110 (F := Ideal) b)) (Host.dotGeneral (F := Ideal) (φ₁ := .f32) (φ₂ := .f32) Cert.ReferenceIdeal.dot_S50000x128_S128x64_S50000x64_1_0_0_1_n_n none g (val_main_v112 (F := Ideal) wr : FVec Ideal Cert.ReferenceIdeal.S128x64 .f32)) := by
  funext i
  obtain ⟨p, j, rfl⟩ : ∃ (p : Fin 50000) (j : Fin 64), i = ix2 p j := ⟨i 0, i 1, eq_ix2 i⟩
  have hC : ∀ (p : Fin 50000) (k : Fin 128), val_main_v105 (F := Ideal) x1 (ix2 p k) = cntMax x1 (ix1 p) := fun p k => by
    unfold val_main_v105 val_main_v104
    exact Cert.LibColumnSpread.colOfVec_spread_apply (by decide) _ _ _ p k
  have hBb : ∀ (p : Fin 50000) (j : Fin 64), val_main_v110 (F := Ideal) b (ix2 p j) = b (ix1 j) := fun p j => by
    unfold val_main_v110 val_main_v109
    exact Cert.LibHostRows.rowOfVec_spread_apply (by decide) b _ _ p j
  have hbK : ∀ j : Fin 64, (shapeCast S1x64 b shapeCasts_S64_S1x64 : FVec Ideal S1x64 .f32) (ix2 (0 : Fin 1) j) = b (ix1 j) := fun j =>
    Cert.LibHostRows.rowOfVec_cast_apply b _ j
  have key := Sage.denseAt_eq_host false Cert.ReferenceIdeal.dot_S50000x128_S128x64_S50000x64_1_0_0_1_n_n rfl rfl lhs_main_v108_0 lhs_main_v108_1 rhs_main_v108_0 rhs_main_v108_1
    (sum128 g x1) (inv128 x1) g (val_main_v105 (F := Ideal) x1) (val_main_v107 (F := Ideal) wl : FVec Ideal Cert.ReferenceIdeal.S128x64 .f32) (val_main_v112 (F := Ideal) wr : FVec Ideal Cert.ReferenceIdeal.S128x64 .f32)
    (shapeCast S1x64 b shapeCasts_S64_S1x64) (val_main_v110 (F := Ideal) b) (fun p => cntMax x1 (ix1 p)) (Ideal.ofBits .f32 0x3F800000#32) (fun j => b (ix1 j))
    Ideal.ofBits_one_f32 (cntMax_ne_zero x1) (inv128_apply x1) hC hbK hBb p j
  rw [sum_eq4]
  exact (feat_apply4 g x1 wl b wr p j).trans (key.trans (act_false _))

end Cert.Bridge

end
-- ==== Proof.Final.lean ====
/-
  The kernel program's result is the reference's, as one function of the fourteen arguments.

  Each layer's law takes equal features to equal features, so the four laws chain: the first layer's features are the
  reference's first stage, those feed the second layer on both sides, and so on to the result.
-/
import proofs.«138681_j26860725469213_1_alg».proof.Proof.RefBridge

set_option maxRecDepth 16384

noncomputable section

namespace Cert.Bridge

open Idealize.ShloMosaic Idealize.ShloMosaic.TcCoe
open Cert.KernelIdeal.Hand Cert.ReferenceIdeal.Read
open Cert.KernelIdeal Cert.KernelIdeal.Gen

theorem feat1 (x0 : FVec Ideal S50000x128 .f32) (x1 : Edges) (x2 : FVec Ideal S64x128 .f32) (x3 : FVec Ideal S64 .f32) (x4 : FVec Ideal S64x128 .f32) :
    h1 x0 x1 x2 x3 x4 = val_main_v31 (F := Ideal) x0 x1 x2 x3 x4 :=
  (layer1 x0 x1 x2 x3 x4).trans rfl

theorem feat2 (x0 : FVec Ideal S50000x128 .f32) (x1 : Edges) (x2 : FVec Ideal S64x128 .f32) (x3 : FVec Ideal S64 .f32) (x4 : FVec Ideal S64x128 .f32) (x5 : FVec Ideal S128x64 .f32) (x6 : FVec Ideal S128 .f32) (x7 : FVec Ideal S128x64 .f32) :
    h2 (h1 x0 x1 x2 x3 x4) x1 x5 x6 x7 = val_main_v59 (F := Ideal) x0 x1 x2 x3 x4 x5 x6 x7 := by
  rw [feat1]
  exact (layer2 _ x1 x5 x6 x7).trans rfl

theorem feat3 (x0 : FVec Ideal S50000x128 .f32) (x1 : Edges) (x2 : FVec Ideal S64x128 .f32) (x3 : FVec Ideal S64 .f32) (x4 : FVec Ideal S64x128 .f32) (x5 : FVec Ideal S128x64 .f32) (x6 : FVec Ideal S128 .f32) (x7 : FVec Ideal S128x64 .f32) (x8 : FVec Ideal S128x128 .f32) (x9 : FVec Ideal S128 .f32) (x10 : FVec Ideal S128x128 .f32) :
    h3 (h2 (h1 x0 x1 x2 x3 x4) x1 x5 x6 x7) x1 x8 x9 x10 = val_main_v87 (F := Ideal) x0 x1 x2 x3 x4 x5 x6 x7 x8 x9 x10 := by
  rw [feat2]
  exact (layer3 _ x1 x8 x9 x10).trans rfl

/-- The kernel program's result term is the reference's last stage. -/
theorem result_eq (x0 : FVec Ideal S50000x128 .f32) (x1 : Edges) (x2 : FVec Ideal S64x128 .f32) (x3 : FVec Ideal S64 .f32) (x4 : FVec Ideal S64x128 .f32) (x5 : FVec Ideal S128x64 .f32) (x6 : FVec Ideal S128 .f32) (x7 : FVec Ideal S128x64 .f32) (x8 : FVec Ideal S128x128 .f32) (x9 : FVec Ideal S128 .f32) (x10 : FVec Ideal S128x128 .f32) (x11 : FVec Ideal S64x128 .f32) (x12 : FVec Ideal S64 .f32) (x13 : FVec Ideal S64x128 .f32) :
    h4 (h3 (h2 (h1 x0 x1 x2 x3 x4) x1 x5 x6 x7) x1 x8 x9 x10) x1 x11 x12 x13
      = val_main_v114 (F := Ideal) x0 x1 x2 x3 x4 x5 x6 x7 x8 x9 x10 x11 x12 x13 := by
  rw [feat3]
  exact (layer4 _ x1 x11 x12 x13).trans rfl

end Cert.Bridge

end
-- ==== Proof.lean ====
/-
  The five claims for the four-layer mean-aggregation graph network.

  The kernel program gathers and scatter-adds the neighbours' features with host operations and runs each layer's dense
  step — two row-by-column products, a bias, a clamp at zero — as a launch over ten row blocks; the reference is
  plain host code.  The three frames are the generated ones (the reference's is its generated run with the result
  dropped).  The idealization changed nothing that needs a statement.  For the value claim, the kernel program's run
  ends with its result array at the last launch's dense step of what the earlier boundaries hold, which unwinds to
  four nested layers of the arguments; the reference's run ends at its last stage; and the two are one function of the
  arguments by the layer law: `s · (1 / c) = s / c` for a divisor `c ≥ 1`, and a sum reordered.
-/
import proofs.«138681_j26860725469213_1_alg».proof.Defs
import proofs.«138681_j26860725469213_1_alg».proof.Proof.Gen.Kernel
import proofs.«138681_j26860725469213_1_alg».proof.Proof.Gen.Kernel.Frame
import proofs.«138681_j26860725469213_1_alg».proof.Proof.Gen.KernelIdeal
import proofs.«138681_j26860725469213_1_alg».proof.Proof.Gen.KernelIdeal.Frame
import proofs.«138681_j26860725469213_1_alg».proof.Proof.Gen.ReferenceIdeal
import proofs.«138681_j26860725469213_1_alg».proof.Proof.Gen.ReferenceIdeal.Run
import proofs.«138681_j26860725469213_1_alg».proof.Proof.Gen.ReferenceIdeal.Read
import proofs.«138681_j26860725469213_1_alg».proof.Proof.Gen.Pre_finite_inputs
import proofs.«138681_j26860725469213_1_alg».proof.Proof.KernelRun
import proofs.«138681_j26860725469213_1_alg».proof.Proof.KernelChain
import proofs.«138681_j26860725469213_1_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with equal results: the kernel program's result array at the four nested layers of its arguments,
    the reference's at its last stage of arguments that agree, and the two are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.H4 m c, ?_, ?_⟩
  · exact (θ_run Cert.KernelIdeal.defs _ _).mono (fun r h c => ⟨(h c).1.trans (Cert.KernelIdeal.Hand.b8_v76 m ρ c), (h c).2⟩)
      (Cert.KernelIdeal.Hand.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13⟩ := hagree c
    rw [Cert.ReferenceIdeal.Read.val_main_v114_eq, a0, a1, a2, a3, a4, a5, a6, a7, a8, a9, a10, a11, a12, a13]
    exact (Cert.Bridge.result_eq _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
